-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S1x16384 : Shape := ⟨2, ![1, 16384]⟩
abbrev S16384x512 : Shape := ⟨2, ![16384, 512]⟩
abbrev S1542x1024 : Shape := ⟨2, ![1542, 1024]⟩
abbrev S1542 : Shape := ⟨1, ![1542]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x16384 : S_.BroadcastsInDim S1x16384 (![] : Fin 0 → Fin S1x16384.rank)
  reducesTo_S1x16384_S_d0_1 : S1x16384.ReducesTo [0, 1] S_
  bcast_S_S16384x512 : S_.BroadcastsInDim S16384x512 (![] : Fin 0 → Fin S16384x512.rank)
  reducesTo_S16384x512_S_d0_1 : S16384x512.ReducesTo [0, 1] S_
  bcast_S_S1542x1024 : S_.BroadcastsInDim S1542x1024 (![] : Fin 0 → Fin S1542x1024.rank)
  reducesTo_S1542x1024_S_d0_1 : S1542x1024.ReducesTo [0, 1] S_
  bcast_S_S1542 : S_.BroadcastsInDim S1542 (![] : Fin 0 → Fin S1542.rank)
  reducesTo_S1542_S_d0 : S1542.ReducesTo [0] S_

variable [Facts]

def fn_part1 {F : FTy → Type} [FloatOps F] (main_arg4 : FVec F S1542 .f32) (main_v13 : IVec S_ 1) (main_v16 : IVec S1542x1024 1) : IVec S_ 1 :=
  let main_c_5 : IVec S_ 1 := constantI S_ 1 1#1
  let main_v17 : IVec S_ 1 := (fun x v => Host.reduce IntOp.andi x v reducesTo_S1542x1024_S_d0_1 h_S_) main_v16 main_c_5
  let main_v18 : IVec S_ 1 := andi main_v13 main_v17
  let main_v19 : FVec F S1542 .f32 := Host.absf main_arg4
  let main_cst_6 : FVec F S_ .f32 := constant S_ .f32 0x7F800000#32
  let main_v20 : FVec F S1542 .f32 := broadcastInDim S1542 ![] bcast_S_S1542 main_cst_6
  let main_v21 : IVec S1542 1 := cmpf .olt main_v19 main_v20
  let main_c_7 : IVec S_ 1 := constantI S_ 1 1#1
  let main_v22 : IVec S_ 1 := (fun x v => Host.reduce IntOp.andi x v reducesTo_S1542_S_d0 h_S_) main_v21 main_c_7
  let main_v23 : IVec S_ 1 := andi main_v18 main_v22
  main_v23

def fn {F : FTy → Type} [FloatOps F] (main_arg0 : FVec F S1x1024 .f32) (main_arg1 : FVec F S1x16384 .f32) (main_arg2 : FVec F S16384x512 .f32) (main_arg3 : FVec F S1542x1024 .f32) (main_arg4 : FVec F S1542 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x16384 .f32 := Host.absf main_arg1
  let main_cst_0 : FVec F S_ .f32 := constant S_ .f32 0x7F800000#32
  let main_v5 : FVec F S1x16384 .f32 := broadcastInDim S1x16384 ![] bcast_S_S1x16384 main_cst_0
  let main_v6 : IVec S1x16384 1 := cmpf .olt main_v4 main_v5
  let main_c_1 : IVec S_ 1 := constantI S_ 1 1#1
  let main_v7 : IVec S_ 1 := (fun x v => Host.reduce IntOp.andi x v reducesTo_S1x16384_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1542x1024 .f32 := Host.absf main_arg3
  let main_cst_4 : FVec F S_ .f32 := constant S_ .f32 0x7F800000#32
  let main_v15 : FVec F S1542x1024 .f32 := broadcastInDim S1542x1024 ![] bcast_S_S1542x1024 main_cst_4
  let main_v16 : IVec S1542x1024 1 := cmpf .olt main_v14 main_v15
  fn_part1 (F := F) main_arg4 main_v13 main_v16
-- ==== Kernel.lean ====
abbrev S1x1024 : Shape := ⟨2, ![1, 1024]⟩
abbrev S1x16384 : Shape := ⟨2, ![1, 16384]⟩
abbrev S16384x512 : Shape := ⟨2, ![16384, 512]⟩
abbrev S1542x1024 : Shape := ⟨2, ![1542, 1024]⟩
abbrev S1542 : Shape := ⟨1, ![1542]⟩
abbrev S1x1542 : Shape := ⟨2, ![1, 1542]⟩
abbrev S1x512 : Shape := ⟨2, ![1, 512]⟩
abbrev S1x1 : Shape := ⟨2, ![1, 1]⟩
abbrev S_ : Shape := ⟨0, ![]⟩
abbrev S1x3 : Shape := ⟨2, ![1, 3]⟩
abbrev S1 : Shape := ⟨1, ![1]⟩
abbrev S16384x1 : Shape := ⟨2, ![16384, 1]⟩
abbrev S2048x512 : Shape := ⟨2, ![2048, 512]⟩
abbrev S2048x1 : Shape := ⟨2, ![2048, 1]⟩
abbrev S2048 : Shape := ⟨1, ![2048]⟩
abbrev S16383x1 : Shape := ⟨2, ![16383, 1]⟩

abbrev nBuf : Space → Nat
  | .hbm => 139
  | .vmem => 19
  | .smem => 0
  | _ => 0

abbrev hbmTy0_0 (i : Nat) : BufTy := match i % 128 with
  | 0 => ⟨S1x1024, .f32⟩
  | 1 => ⟨S1x16384, .f32⟩
  | 2 => ⟨S16384x512, .f32⟩
  | 3 => ⟨S1542x1024, .f32⟩
  | 4 => ⟨S1542, .f32⟩
  | 5 => ⟨S1x1542, .f32⟩
  | 6 => ⟨S1x1542, .f32⟩
  | 7 => ⟨S1x512, .f32⟩
  | 8 => ⟨S1x1, .f32⟩
  | 9 => ⟨S_, .f32⟩
  | 10 => ⟨S1x1, .f32⟩
  | 11 => ⟨S1x1, .f32⟩
  | 12 => ⟨S1x1, .f32⟩
  | 13 => ⟨S1x1, .f32⟩
  | 14 => ⟨S1x1, .i1⟩
  | 15 => ⟨S1x1, .f32⟩
  | 16 => ⟨S1x1, .f32⟩
  | 17 => ⟨S1x1, .f32⟩
  | 18 => ⟨S1x1, .f32⟩
  | 19 => ⟨S1x1, .f32⟩
  | 20 => ⟨S1x1, .f32⟩
  | 21 => ⟨S1x1, .f32⟩
  | 22 => ⟨S1x1, .f32⟩
  | 23 => ⟨S1x1, .f32⟩
  | 24 => ⟨S1x1, .f32⟩
  | 25 => ⟨S1x1, .f32⟩
  | 26 => ⟨S_, .f32⟩
  | 27 => ⟨S1x1, .f32⟩
  | 28 => ⟨S1x1, .f32⟩
  | 29 => ⟨S_, .f32⟩
  | 30 => ⟨S1x1, .f32⟩
  | 31 => ⟨S1x1, .f32⟩
  | 32 => ⟨S1x3, .f32⟩
  | 33 => ⟨S_, .f32⟩
  | 34 => ⟨S1, .f32⟩
  | 35 => ⟨S_, .f32⟩
  | 36 => ⟨S1, .f32⟩
  | 37 => ⟨S1, .f32⟩
  | 38 => ⟨S1x1, .f32⟩
  | 39 => ⟨S1x3, .f32⟩
  | 40 => ⟨S1x3, .f32⟩
  | 41 => ⟨S1x3, .f32⟩
  | 42 => ⟨S_, .f32⟩
  | 43 => ⟨S1, .f32⟩
  | 44 => ⟨S1x1, .f32⟩
  | 45 => ⟨S1x3, .f32⟩
  | 46 => ⟨S1x3, .f32⟩
  | 47 => ⟨S1x1, .f32⟩
  | 48 => ⟨S_, .f32⟩
  | 49 => ⟨S1x1, .f32⟩
  | 50 => ⟨S1x1, .f32⟩
  | 51 => ⟨S1x1, .f32⟩
  | 52 => ⟨S1x1, .f32⟩
  | 53 => ⟨S1x1, .i1⟩
  | 54 => ⟨S1x1, .f32⟩
  | 55 => ⟨S1x1, .f32⟩
  | 56 => ⟨S1x1, .f32⟩
  | 57 => ⟨S1x1, .f32⟩
  | 58 => ⟨S1x1, .f32⟩
  | 59 => ⟨S1x1, .f32⟩
  | 60 => ⟨S1x1, .f32⟩
  | 61 => ⟨S1x1, .f32⟩
  | 62 => ⟨S_, .f32⟩
  | 63 => ⟨S1x1, .f32⟩
  | 64 => ⟨S1x1, .f32⟩
  | 65 => ⟨S1x512, .f32⟩
  | 66 => ⟨S1x512, .f32⟩
  | 67 => ⟨S16384x1, .f32⟩
  | 68 => ⟨S16384x1, .f32⟩
  | 69 => ⟨S1x512, .f32⟩
  | 70 => ⟨S_, .f32⟩
  | 71 => ⟨S1, .f32⟩
  | 72 => ⟨S1, .f32⟩
  | 73 => ⟨S_, .f32⟩
  | 74 => ⟨S16384x1, .f32⟩
  | 75 => ⟨S16384x1, .f32⟩
  | 76 => ⟨S_, .f32⟩
  | 77 => ⟨S16384x1, .f32⟩
  | 78 => ⟨S16384x1, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S1, .f32⟩
  | 85 => ⟨S_, .f32⟩
  | 86 => ⟨S1, .f32⟩
  | 87 => ⟨S1, .f32⟩
  | 88 => ⟨S1x1, .f32⟩
  | 89 => ⟨S16384x1, .f32⟩
  | 90 => ⟨S16384x1, .f32⟩
  | 91 => ⟨S16384x1, .f32⟩
  | 92 => ⟨S_, .f32⟩
  | 93 => ⟨S1, .f32⟩
  | 94 => ⟨S1x1, .f32⟩
  | 95 => ⟨S16384x1, .f32⟩
  | 96 => ⟨S16384x1, .f32⟩
  | 97 => ⟨S16384x1, .f32⟩
  | 98 => ⟨S_, .f32⟩
  | 99 => ⟨S16384x1, .f32⟩
  | 100 => ⟨S16384x1, .f32⟩
  | 101 => ⟨S_, .f32⟩
  | 102 => ⟨S_, .f32⟩
  | 103 => ⟨S16384x1, .f32⟩
  | 104 => ⟨S16384x1, .f32⟩
  | 105 => ⟨S16384x1, .f32⟩
  | 106 => ⟨S1x1, .f32⟩
  | 107 => ⟨S_, .f32⟩
  | 108 => ⟨S1x1, .f32⟩
  | 109 => ⟨S_, .f32⟩
  | 110 => ⟨S1x1, .f32⟩
  | 111 => ⟨S_, .f32⟩
  | 112 => ⟨S1x1, .f32⟩
  | 113 => ⟨S16383x1, .f32⟩
  | 114 => ⟨S16384x1, .f32⟩
  | 115 => ⟨S16384x1, .f32⟩
  | 116 => ⟨S16384x1, .f32⟩
  | 117 => ⟨S16384x1, .f32⟩
  | 118 => ⟨S16384x1, .f32⟩
  | 119 => ⟨S16384x1, .f32⟩
  | 120 => ⟨S16383x1, .f32⟩
  | 121 => ⟨S1x1, .f32⟩
  | 122 => ⟨S16384x1, .f32⟩
  | 123 => ⟨S16384x1, .f32⟩
  | 124 => ⟨S16384x1, .f32⟩
  | 125 => ⟨S16384x1, .f32⟩
  | 126 => ⟨S_, .f32⟩
  | 127 => ⟨S_, .f32⟩
  | _ => ⟨S1x1024, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x1, .f32⟩
  | 4 => ⟨S_, .f32⟩
  | 5 => ⟨S1, .f32⟩
  | 6 => ⟨S1x1, .f32⟩
  | 7 => ⟨S16384x1, .f32⟩
  | 8 => ⟨S16384x1, .f32⟩
  | 9 => ⟨S16384x512, .f32⟩
  | 10 => ⟨S1x16384, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S1x1024, .f32⟩
  | .local _ .vmem, ⟨1, _⟩ => ⟨S1542x1024, .f32⟩
  | .local _ .vmem, ⟨2, _⟩ => ⟨S1x1542, .f32⟩
  | .local _ .vmem, ⟨3, _⟩ => ⟨S1x1542, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x512, .f32⟩
  | .local _ .vmem, ⟨12, _⟩ => ⟨S2048x512, .f32⟩
  | .local _ .vmem, ⟨13, _⟩ => ⟨S2048x1, .f32⟩
  | .local _ .vmem, ⟨14, _⟩ => ⟨S2048x1, .f32⟩
  | .local _ .vmem, ⟨15, _⟩ => ⟨S1x512, .f32⟩
  | .local _ .vmem, ⟨16, _⟩ => ⟨S1x512, .f32⟩
  | .local _ .vmem, ⟨17, _⟩ => ⟨S2048x512, .f32⟩
  | .local _ .vmem, ⟨18, _⟩ => ⟨S2048x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v25 : Ref sig .tc := ⟨.hbm, 61, rfl⟩
abbrev main_cst_4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30_0 : Ref sig .tc := ⟨.hbm, 67, rfl⟩
abbrev main_v30_1 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_6 : Ref sig .tc := ⟨.hbm, 83, rfl⟩
abbrev main_v41 : Ref sig .tc := ⟨.hbm, 84, rfl⟩
abbrev main_cst_7 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_9 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_v0 : Ref sig .tc := ⟨.hbm, 112, rfl⟩
abbrev main_call3_v1 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_v0 : Ref sig .tc := ⟨.hbm, 120, rfl⟩
abbrev main_call4_v1 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_10 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_11 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1542x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1542 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1542 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1542_S1x1542 : S1542.ShapeCasts S1x1542
  inb_S1x1024_S1x1024_0_0 : ∀ a, (![0, 0] : Fin 2 → Nat) a + S1x1024.size a ≤ S1x1024.size a
  h_S1x1024 : 0 < S1x1024.numel
  inb_S1542x1024_S1542x1024_0_0 : ∀ a, (![0, 0] : Fin 2 → Nat) a + S1542x1024.size a ≤ S1542x1024.size a
  h_S1542x1024 : 0 < S1542x1024.numel
  inb_S1x1542_S1x1542_0_0 : ∀ a, (![0, 0] : Fin 2 → Nat) a + S1x1542.size a ≤ S1x1542.size a
  h_S1x1542 : 0 < S1x1542.numel
  shapeCasts_S1x1542_S1x1542 : S1x1542.ShapeCasts S1x1542
  slices_S1x1542_S1x512_0_0 : S1x1542.Slices ![0, 0] S1x512
  slices_S1x1542_S1x1_0_512 : S1x1542.Slices ![0, 512] S1x1
  bcast_S_S1x1 : S_.BroadcastsInDim S1x1 (![] : Fin 0 → Fin S1x1.rank)
  slices_S1x1542_S1x1_0_513 : S1x1542.Slices ![0, 513] S1x1
  slices_S1x1542_S1x3_0_514 : S1x1542.Slices ![0, 514] S1x3
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  slices_S1x1542_S1x1_0_517 : S1x1542.Slices ![0, 517] S1x1
  slices_S1x1542_S1x512_0_518 : S1x1542.Slices ![0, 518] S1x512
  slices_S1x1542_S1x512_0_1030 : S1x1542.Slices ![0, 1030] S1x512
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  reducesTo_S1x512_S1_d1 : S1x512.ReducesTo [1] S1
  shapeCasts_S1_S_ : S1.ShapeCasts S_
  bcast_S_S16384x1 : S_.BroadcastsInDim S16384x1 (![] : Fin 0 → Fin S16384x1.rank)
  shapeCasts_S1x1_S_ : S1x1.ShapeCasts S_
  reducesTo_S16384x1_S1_d0 : S16384x1.ReducesTo [0] S1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S1x16384_S16384x1 : S1x16384.ShapeCasts S16384x1
  slices_S1x3_S1x1_0_0 : S1x3.Slices ![0, 0] S1x1
  slices_S1x3_S1x1_0_1 : S1x3.Slices ![0, 1] S1x1
  slices_S1x3_S1x1_0_2 : S1x3.Slices ![0, 2] S1x1
  slices_S16384x1_S1x1_16383_0 : S16384x1.Slices ![16383, 0] S1x1
  slices_S16384x1_S16383x1_0_0 : S16384x1.Slices ![0, 0] S16383x1
  concatenates_S1x1_S16383x1_S16384x1_d0 : Shape.Concatenates [S1x1, S16383x1] S16384x1 0
  slices_S16384x1_S16383x1_1_0 : S16384x1.Slices ![1, 0] S16383x1
  slices_S16384x1_S1x1_0_0 : S16384x1.Slices ![0, 0] S1x1
  concatenates_S16383x1_S1x1_S16384x1_d0 : Shape.Concatenates [S16383x1, S1x1] S16384x1 0
  shapeCasts_S2048x1_S2048x1 : S2048x1.ShapeCasts S2048x1
  broadcasts_S2048x1_S2048x512 : S2048x1.Broadcasts S2048x512
  shapeCasts_S16384x1_S1x16384 : S16384x1.ShapeCasts S1x16384
  dot_S1x1024_S1542x1024_S1x1542_1_1_0_0_n_n_wf : DotDims.WF S1x1024 S1542x1024 S1x1542 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1542x1024.size a ≤ S1542x1024.size a
  hwx0_1 : ∀ i : grid0.Coords, EltTy.bits .f32 = 32 ∨ (Rect.block (s := S1542x1024) S1542x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1542.size a ≤ S1x1542.size a
  hwx0_2 : ∀ i : grid0.Coords, EltTy.bits .f32 = 32 ∨ (Rect.block (s := S1x1542) S1x1542.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1542.size a ≤ S1x1542.size a
  hwx0_3 : ∀ i : grid0.Coords, EltTy.bits .f32 = 32 ∨ (Rect.block (s := S1x1542) S1x1542.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S16384x1.size a
  hwx2_1 : ∀ i : grid2.Coords, EltTy.bits .f32 = 32 ∨ (Rect.block (s := S16384x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S16384x512.size a
  hwx2_4 : ∀ i : grid2.Coords, EltTy.bits .f32 = 32 ∨ (Rect.block (s := S16384x512) S2048x512.size (cc2_transform_4 i) (hinb2_4 i)).WholeWords (EltTy.packing .f32)

variable [Facts₀]

def dot_S1x1024_S1542x1024_S1x1542_1_1_0_0_n_n : DotDims S1x1024 S1542x1024 S1x1542 where
  lhsContracting := [1]
  rhsContracting := [1]
  lhsNonContracting := [0]
  rhsNonContracting := [0]
  lhsBatch := []
  rhsBatch := []
  wf := dot_S1x1024_S1542x1024_S1x1542_1_1_0_0_n_n_wf

abbrev win0_0 : Pipeline.Window sig grid0 :=
  Pipeline.Window.ofSpec (Memref.whole main_arg0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1542x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1542.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1542.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30_0) S2048x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30_1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x1024 : Shape := ⟨2, ![1, 1024]⟩
abbrev S1x16384 : Shape := ⟨2, ![1, 16384]⟩
abbrev S16384x512 : Shape := ⟨2, ![16384, 512]⟩
abbrev S1542x1024 : Shape := ⟨2, ![1542, 1024]⟩
abbrev S1542 : Shape := ⟨1, ![1542]⟩
abbrev S1024x1542 : Shape := ⟨2, ![1024, 1542]⟩
abbrev S1x1542 : Shape := ⟨2, ![1, 1542]⟩
abbrev S1x512 : Shape := ⟨2, ![1, 512]⟩
abbrev S1x1 : Shape := ⟨2, ![1, 1]⟩
abbrev S_ : Shape := ⟨0, ![]⟩
abbrev S1x3 : Shape := ⟨2, ![1, 3]⟩
abbrev S1 : Shape := ⟨1, ![1]⟩
abbrev S16384 : Shape := ⟨1, ![16384]⟩
abbrev S512x16384 : Shape := ⟨2, ![512, 16384]⟩
abbrev S1x16383 : Shape := ⟨2, ![1, 16383]⟩
abbrev S16384x1 : Shape := ⟨2, ![16384, 1]⟩

abbrev nBuf : Space → Nat
  | .hbm => 147
  | .vmem => 0
  | .smem => 0
  | _ => 0

abbrev hbmTy0_0 (i : Nat) : BufTy := match i % 128 with
  | 0 => ⟨S1x1024, .f32⟩
  | 1 => ⟨S1x16384, .f32⟩
  | 2 => ⟨S16384x512, .f32⟩
  | 3 => ⟨S1542x1024, .f32⟩
  | 4 => ⟨S1542, .f32⟩
  | 5 => ⟨S1024x1542, .f32⟩
  | 6 => ⟨S1x1542, .f32⟩
  | 7 => ⟨S1x1542, .f32⟩
  | 8 => ⟨S1x1542, .f32⟩
  | 9 => ⟨S1x512, .f32⟩
  | 10 => ⟨S1x1, .f32⟩
  | 11 => ⟨S_, .f32⟩
  | 12 => ⟨S1x1, .f32⟩
  | 13 => ⟨S1x1, .f32⟩
  | 14 => ⟨S1x1, .f32⟩
  | 15 => ⟨S1x1, .f32⟩
  | 16 => ⟨S1x1, .i1⟩
  | 17 => ⟨S1x1, .f32⟩
  | 18 => ⟨S1x1, .f32⟩
  | 19 => ⟨S1x1, .f32⟩
  | 20 => ⟨S1x1, .f32⟩
  | 21 => ⟨S1x1, .f32⟩
  | 22 => ⟨S1x1, .f32⟩
  | 23 => ⟨S1x1, .f32⟩
  | 24 => ⟨S1x1, .f32⟩
  | 25 => ⟨S1x1, .f32⟩
  | 26 => ⟨S1x1, .f32⟩
  | 27 => ⟨S1x1, .f32⟩
  | 28 => ⟨S_, .f32⟩
  | 29 => ⟨S1x1, .f32⟩
  | 30 => ⟨S1x1, .f32⟩
  | 31 => ⟨S_, .f32⟩
  | 32 => ⟨S1x1, .f32⟩
  | 33 => ⟨S1x1, .f32⟩
  | 34 => ⟨S1x3, .f32⟩
  | 35 => ⟨S_, .f32⟩
  | 36 => ⟨S1, .f32⟩
  | 37 => ⟨S_, .f32⟩
  | 38 => ⟨S1, .f32⟩
  | 39 => ⟨S1, .f32⟩
  | 40 => ⟨S1x1, .f32⟩
  | 41 => ⟨S1x3, .f32⟩
  | 42 => ⟨S1x3, .f32⟩
  | 43 => ⟨S1x3, .f32⟩
  | 44 => ⟨S_, .f32⟩
  | 45 => ⟨S1, .f32⟩
  | 46 => ⟨S1x1, .f32⟩
  | 47 => ⟨S1x3, .f32⟩
  | 48 => ⟨S1x3, .f32⟩
  | 49 => ⟨S1x1, .f32⟩
  | 50 => ⟨S_, .f32⟩
  | 51 => ⟨S1x1, .f32⟩
  | 52 => ⟨S1x1, .f32⟩
  | 53 => ⟨S1x1, .f32⟩
  | 54 => ⟨S1x1, .f32⟩
  | 55 => ⟨S1x1, .i1⟩
  | 56 => ⟨S1x1, .f32⟩
  | 57 => ⟨S1x1, .f32⟩
  | 58 => ⟨S1x1, .f32⟩
  | 59 => ⟨S1x1, .f32⟩
  | 60 => ⟨S1x1, .f32⟩
  | 61 => ⟨S1x1, .f32⟩
  | 62 => ⟨S1x1, .f32⟩
  | 63 => ⟨S1x1, .f32⟩
  | 64 => ⟨S_, .f32⟩
  | 65 => ⟨S1x1, .f32⟩
  | 66 => ⟨S1x1, .f32⟩
  | 67 => ⟨S1x512, .f32⟩
  | 68 => ⟨S1x512, .f32⟩
  | 69 => ⟨S16384x512, .f32⟩
  | 70 => ⟨S_, .f32⟩
  | 71 => ⟨S16384, .f32⟩
  | 72 => ⟨S16384, .f32⟩
  | 73 => ⟨S1x512, .f32⟩
  | 74 => ⟨S_, .f32⟩
  | 75 => ⟨S1, .f32⟩
  | 76 => ⟨S1, .f32⟩
  | 77 => ⟨S512x16384, .f32⟩
  | 78 => ⟨S1x16384, .f32⟩
  | 79 => ⟨S1x1, .f32⟩
  | 80 => ⟨S1x16384, .f32⟩
  | 81 => ⟨S1x16384, .f32⟩
  | 82 => ⟨S1x16384, .f32⟩
  | 83 => ⟨S_, .f32⟩
  | 84 => ⟨S1x16384, .f32⟩
  | 85 => ⟨S1x16384, .f32⟩
  | 86 => ⟨S1x16384, .f32⟩
  | 87 => ⟨S1x16384, .f32⟩
  | 88 => ⟨S1x16384, .f32⟩
  | 89 => ⟨S_, .f32⟩
  | 90 => ⟨S1, .f32⟩
  | 91 => ⟨S_, .f32⟩
  | 92 => ⟨S1, .f32⟩
  | 93 => ⟨S1, .f32⟩
  | 94 => ⟨S1x1, .f32⟩
  | 95 => ⟨S1x16384, .f32⟩
  | 96 => ⟨S1x16384, .f32⟩
  | 97 => ⟨S1x16384, .f32⟩
  | 98 => ⟨S_, .f32⟩
  | 99 => ⟨S1, .f32⟩
  | 100 => ⟨S1x1, .f32⟩
  | 101 => ⟨S1x16384, .f32⟩
  | 102 => ⟨S1x16384, .f32⟩
  | 103 => ⟨S1x16384, .f32⟩
  | 104 => ⟨S1x16384, .f32⟩
  | 105 => ⟨S_, .f32⟩
  | 106 => ⟨S1x1, .f32⟩
  | 107 => ⟨S1x1, .f32⟩
  | 108 => ⟨S1x16384, .f32⟩
  | 109 => ⟨S1x16384, .f32⟩
  | 110 => ⟨S1x16384, .f32⟩
  | 111 => ⟨S1x1, .f32⟩
  | 112 => ⟨S1x1, .f32⟩
  | 113 => ⟨S1x16383, .f32⟩
  | 114 => ⟨S1x16384, .f32⟩
  | 115 => ⟨S1x16384, .f32⟩
  | 116 => ⟨S1x16384, .f32⟩
  | 117 => ⟨S1x1, .f32⟩
  | 118 => ⟨S1x16384, .f32⟩
  | 119 => ⟨S1x16384, .f32⟩
  | 120 => ⟨S1x16384, .f32⟩
  | 121 => ⟨S1x1, .f32⟩
  | 122 => ⟨S1x16383, .f32⟩
  | 123 => ⟨S1x1, .f32⟩
  | 124 => ⟨S1x16384, .f32⟩
  | 125 => ⟨S1x16384, .f32⟩
  | 126 => ⟨S1x16384, .f32⟩
  | 127 => ⟨S1x16384, .f32⟩
  | _ => ⟨S1x1024, .f32⟩

abbrev hbmTy0_1 (i : Nat) : BufTy := match i % 128 with
  | 0 => ⟨S_, .f32⟩
  | 1 => ⟨S1x16384, .f32⟩
  | 2 => ⟨S1x16384, .f32⟩
  | 3 => ⟨S1x16384, .f32⟩
  | 4 => ⟨S1x16384, .f32⟩
  | 5 => ⟨S_, .f32⟩
  | 6 => ⟨S1, .f32⟩
  | 7 => ⟨S1x1, .f32⟩
  | 8 => ⟨S1x16384, .f32⟩
  | 9 => ⟨S1x16384, .f32⟩
  | 10 => ⟨S16384x1, .f32⟩
  | 11 => ⟨S16384x512, .f32⟩
  | 12 => ⟨S16384x1, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S16384x512, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_v32 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_5 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_cst_7 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_8 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_9 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call4_v0 : Ref sig .tc := ⟨.hbm, 112, rfl⟩
abbrev main_call4_v1 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_call5_v0 : Ref sig .tc := ⟨.hbm, 122, rfl⟩
abbrev main_call5_v1 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_10 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_11 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_12 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩

abbrev nD : Nat := 1
abbrev τ : Topo := Topo.v7x

variable {F : FTy → Type} [FloatOps F]

class Facts₀ : Prop where
  transposes_S1542x1024_S1024x1542_1_0 : S1542x1024.Transposes [1, 0] S1024x1542
  bcast_S1542_S1x1542_1 : S1542.BroadcastsInDim S1x1542 (![1] : Fin 1 → Fin S1x1542.rank)
  slices_S1x1542_S1x512_0_0 : S1x1542.Slices ![0, 0] S1x512
  slices_S1x1542_S1x1_0_512 : S1x1542.Slices ![0, 512] S1x1
  bcast_S_S1x1 : S_.BroadcastsInDim S1x1 (![] : Fin 0 → Fin S1x1.rank)
  slices_S1x1542_S1x1_0_513 : S1x1542.Slices ![0, 513] S1x1
  slices_S1x1542_S1x3_0_514 : S1x1542.Slices ![0, 514] S1x3
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  slices_S1x1542_S1x1_0_517 : S1x1542.Slices ![0, 517] S1x1
  slices_S1x1542_S1x512_0_518 : S1x1542.Slices ![0, 518] S1x512
  slices_S1x1542_S1x512_0_1030 : S1x1542.Slices ![0, 1030] S1x512
  reducesTo_S16384x512_S16384_d1 : S16384x512.ReducesTo [1] S16384
  reducesTo_S1x512_S1_d1 : S1x512.ReducesTo [1] S1
  transposes_S16384x512_S512x16384_1_0 : S16384x512.Transposes [1, 0] S512x16384
  bcast_S16384_S1x16384_1 : S16384.BroadcastsInDim S1x16384 (![1] : Fin 1 → Fin S1x16384.rank)
  bcast_S1x1_S1x16384_0_1 : S1x1.BroadcastsInDim S1x16384 (![0, 1] : Fin 2 → Fin S1x16384.rank)
  bcast_S_S1x16384 : S_.BroadcastsInDim S1x16384 (![] : Fin 0 → Fin S1x16384.rank)
  reducesTo_S1x16384_S1_d1 : S1x16384.ReducesTo [1] S1
  slices_S1x3_S1x1_0_0 : S1x3.Slices ![0, 0] S1x1
  slices_S1x16384_S1x1_0_16383 : S1x16384.Slices ![0, 16383] S1x1
  slices_S1x16384_S1x16383_0_0 : S1x16384.Slices ![0, 0] S1x16383
  concatenates_S1x1_S1x16383_S1x16384_d1 : Shape.Concatenates [S1x1, S1x16383] S1x16384 1
  slices_S1x3_S1x1_0_1 : S1x3.Slices ![0, 1] S1x1
  slices_S1x3_S1x1_0_2 : S1x3.Slices ![0, 2] S1x1
  slices_S1x16384_S1x16383_0_1 : S1x16384.Slices ![0, 1] S1x16383
  slices_S1x16384_S1x1_0_0 : S1x16384.Slices ![0, 0] S1x1
  concatenates_S1x16383_S1x1_S1x16384_d1 : Shape.Concatenates [S1x16383, S1x1] S1x16384 1
  transposes_S1x16384_S16384x1_1_0 : S1x16384.Transposes [1, 0] S16384x1
  bcast_S_S16384x512 : S_.BroadcastsInDim S16384x512 (![] : Fin 0 → Fin S16384x512.rank)
  dot_S1x1024_S1024x1542_S1x1542_1_0_0_1_n_n_wf : DotDims.WF S1x1024 S1024x1542 S1x1542 [1] [0] [0] [1] [] []
  dot_S1x512_S512x16384_S1x16384_1_0_0_1_n_n_wf : DotDims.WF S1x512 S512x16384 S1x16384 [1] [0] [0] [1] [] []
  dot_S16384x1_S1x512_S16384x512_1_0_0_1_n_n_wf : DotDims.WF S16384x1 S1x512 S16384x512 [1] [0] [0] [1] [] []

variable [Facts₀]

def dot_S1x1024_S1024x1542_S1x1542_1_0_0_1_n_n : DotDims S1x1024 S1024x1542 S1x1542 where
  lhsContracting := [1]
  rhsContracting := [0]
  lhsNonContracting := [0]
  rhsNonContracting := [1]
  lhsBatch := []
  rhsBatch := []
  wf := dot_S1x1024_S1024x1542_S1x1542_1_0_0_1_n_n_wf
def dot_S1x512_S512x16384_S1x16384_1_0_0_1_n_n : DotDims S1x512 S512x16384 S1x16384 where
  lhsContracting := [1]
  rhsContracting := [0]
  lhsNonContracting := [0]
  rhsNonContracting := [1]
  lhsBatch := []
  rhsBatch := []
  wf := dot_S1x512_S512x16384_S1x16384_1_0_0_1_n_n_wf
def dot_S16384x1_S1x512_S16384x512_1_0_0_1_n_n : DotDims S16384x1 S1x512 S16384x512 where
  lhsContracting := [1]
  rhsContracting := [0]
  lhsNonContracting := [0]
  rhsNonContracting := [1]
  lhsBatch := []
  rhsBatch := []
  wf := dot_S16384x1_S1x512_S16384x512_1_0_0_1_n_n_wf

class Facts : Prop extends Facts₀ where

variable [Facts]
-- ==== Proof.KRun.lean ====
/-
  The idealized kernel's run, with its two result buffers named.

  @main is sixteen segments: host stretches and three pipelined regions. The library's launch theorem for such a
  chain ends with every unscoped buffer of a core at the last boundary's contents; here that conclusion is read at the two
  result buffers (the reshaped weight vector and the rewritten memory) and at the five arguments.
-/
import proofs.«139971_j5454608466465_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; each result buffer ends at the last
    boundary's contents and each argument as launched. -/
theorem run : θ_run defs (onTc (τ := τ) (main (F := F))) ⟨m, fun _ => 0, ρ⟩ (fun r => ∀ c : Dev nD,
      r.2.mem ((c.tc : Thread nD τ).loc main_v86) = W16 m ρ c (Proc.devRef .tc main_v86)
      ∧ r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v86 (by decide)),
       h c _ (mem_uc main_v85 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)

end Cert.KernelIdeal.KRun

end
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Region0.lean ====
/-
  The linear projection: entry (0, j) of the result is the embedding's dot product with row j of the weight matrix, plus
  the bias at j.

  The region has one grid point and every block is its whole array. The body is one matrix product into a zero
  accumulator, contracting the embedding's 1024 entries against each of the matrix's 1542 rows, and one addition.
-/
import proofs.«139971_j5454608466465_1_alg».proof.Proof.Gen.KernelIdeal.Frame
import proofs.«139971_j5454608466465_1_alg».proof.Proof.LibRowLayout
import proofs.«139971_j5454608466465_1_alg».proof.Proof.LibContract
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The payload at (0, j). -/
theorem pay_apply (x0 : FVec Ideal S1x1024 .f32) (x1 : FVec Ideal S1542x1024 .f32) (x3 : FVec Ideal S1x1542 .f32) (j : Fin 1542) :
    k0_pay1 (F := Ideal) x0 x1 x3 (ix2 (0 : Fin 1) j)
      = (∑ k : Fin 1024, x0 (ix2 (0 : Fin 1) k) * x1 (ix2 j k)) + x3 (ix2 (0 : Fin 1) j) := by
  unfold k0_pay1
  simp only [shapeCast_self]
  refine congrArg (· + x3 (ix2 (0 : Fin 1) j)) ?_
  refine ContractSingle.matmul_zero_single dot_S1x1024_S1542x1024_S1x1542_1_1_0_0_n_n none 1024 rfl rfl x0 x1 (ix2 (0 : Fin 1) j)
    (fun k => x0 (ix2 (0 : Fin 1) k)) (fun k => x1 (ix2 j k)) (fun k => ?_) (fun k => ?_)
  · have hk := ValueIdx.contrEquiv1_symm_val dot_S1x1024_S1542x1024_S1x1542_1_1_0_0_n_n 1024 rfl rfl k
    refine congrArg x0 (funext fun a => Fin.ext ?_)
    match a with
    | ⟨0, _⟩ =>
      show (dot_S1x1024_S1542x1024_S1x1542_1_1_0_0_n_n.lhsIdx (ix2 (0 : Fin 1) j) _ 0).val = 0
      unfold DotDims.lhsIdx
      rw [dif_neg (show ¬(0 : Fin S1x1024.rank) ∈ dot_S1x1024_S1542x1024_S1x1542_1_1_0_0_n_n.lhsBatch by decide),
        dif_pos (show (0 : Fin S1x1024.rank) ∈ dot_S1x1024_S1542x1024_S1x1542_1_1_0_0_n_n.lhsNonContracting by decide)]
      rfl
    | ⟨1, _⟩ => exact (dot_S1x1024_S1542x1024_S1x1542_1_1_0_0_n_n.lhsIdx_val_of_single rfl _ _).trans hk
  · have hk := ValueIdx.contrEquiv1_symm_val dot_S1x1024_S1542x1024_S1x1542_1_1_0_0_n_n 1024 rfl rfl k
    refine congrArg x1 (funext fun a => Fin.ext ?_)
    match a with
    | ⟨0, _⟩ =>
      show (dot_S1x1024_S1542x1024_S1x1542_1_1_0_0_n_n.rhsIdx (ix2 (0 : Fin 1) j) _ 0).val = j.val
      unfold DotDims.rhsIdx
      rw [dif_neg (show ¬(0 : Fin S1542x1024.rank) ∈ dot_S1x1024_S1542x1024_S1x1542_1_1_0_0_n_n.rhsBatch by decide),
        dif_pos (show (0 : Fin S1542x1024.rank) ∈ dot_S1x1024_S1542x1024_S1x1542_1_1_0_0_n_n.rhsNonContracting by decide)]
      rfl
    | ⟨1, _⟩ => exact (dot_S1x1024_S1542x1024_S1x1542_1_1_0_0_n_n.rhsIdx_val_of_single rfl _ _).trans hk

/-! ## From the one block to the array -/

variable (V : (c : Dev nD) → (b : Ref sig .tc) → Buf (Elt Ideal) ((c : Thread nD τ).loc b))

/-- Entry by entry: the embedding against a row of the matrix, plus the bias. -/
def proj (emb : S1x1024.Idx → EReal) (W : S1542x1024.Idx → EReal) (b : S1x1542.Idx → EReal) : S1x1542.Idx → EReal :=
  fun i => (∑ k : Fin 1024, emb (ix2 (0 : Fin 1) k) * W (ix2 (⟨(i 1).val, (i 1).isLt⟩ : Fin 1542) k)) + b i

/-- Every window's block sits at the origin. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What the point writes back is the projection. -/
theorem flushed_eq (c : Dev nD) (t : Fin cfg0.N) :
    (dat0 V c).flushed 3 t = ((cfg0.win 3).blk t).view.read (Elt Ideal)
      (proj (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S1x1024) hz, View.ld_unit_zero (S := S1542x1024) hz, View.ld_unit_zero (S := S1x1542) hz]
  obtain ⟨e0, e1, e2, e3, e4, e5, e6, e7⟩ := idx_facts t
  funext y
  obtain ⟨j, rfl⟩ : ∃ j : Fin 1542, y = ix2 (0 : Fin 1) j := ⟨y 1, by
    funext a; match a with
    | ⟨0, _⟩ => exact Fin.ext (by have h1 : (y 0).val < 1 := (y 0).isLt; show (y 0).val = 0; omega)
    | ⟨1, _⟩ => rfl⟩
  refine (pay_apply _ _ _ j).trans ?_
  show _ = proj _ _ _ (((cfg0.win 3).blk t).view.emb (ix2 (0 : Fin 1) j))
  unfold proj
  have hj : j.val < 1542 := j.isLt
  have h0 : ∀ k : Fin 1024, iblk0 V c 0 t (ix2 (0 : Fin 1) k) = V c (Pipeline.arrRef spec0 0) (ix2 (0 : Fin 1) k) := fun k => by
    show V c (Pipeline.arrRef spec0 0) (((cfg0.win 0).blk t).view.emb (ix2 (0 : Fin 1) k)) = _
    refine congrArg (V c (Pipeline.arrRef spec0 0)) (funext fun a => Fin.ext ?_)
    match a with
    | ⟨0, _⟩ => show win0_0.index t (0 : Fin 2) * 1 + 1 * 0 = 0; omega
    | ⟨1, _⟩ => show win0_0.index t (1 : Fin 2) * 1024 + 1 * k.val = k.val; omega
  have h1 : ∀ k : Fin 1024, iblk0 V c 1 t (ix2 j k) = V c (Pipeline.arrRef spec0 1)
      (ix2 (⟨((((cfg0.win 3).blk t).view.emb (ix2 (0 : Fin 1) j)) 1).val, ((((cfg0.win 3).blk t).view.emb (ix2 (0 : Fin 1) j)) 1).isLt⟩ : Fin 1542) k) := fun k => by
    show V c (Pipeline.arrRef spec0 1) (((cfg0.win 1).blk t).view.emb (ix2 j k)) = _
    refine congrArg (V c (Pipeline.arrRef spec0 1)) (funext fun a => Fin.ext ?_)
    match a with
    | ⟨0, _⟩ => show win0_1.index t (0 : Fin 2) * 1542 + 1 * j.val = win0_3.index t (1 : Fin 2) * 1542 + 1 * j.val; omega
    | ⟨1, _⟩ => show win0_1.index t (1 : Fin 2) * 1024 + 1 * k.val = k.val; omega
  have h2 : iblk0 V c 2 t (ix2 (0 : Fin 1) j) = V c (Pipeline.arrRef spec0 2) (((cfg0.win 3).blk t).view.emb (ix2 (0 : Fin 1) j)) := by
    show V c (Pipeline.arrRef spec0 2) (((cfg0.win 2).blk t).view.emb (ix2 (0 : Fin 1) j)) = _
    refine congrArg (V c (Pipeline.arrRef spec0 2)) (funext fun a => Fin.ext ?_)
    match a with
    | ⟨0, _⟩ => show win0_2.index t (0 : Fin 2) * 1 + 1 * 0 = win0_3.index t (0 : Fin 2) * 1 + 1 * 0; omega
    | ⟨1, _⟩ => show win0_2.index t (1 : Fin 2) * 1542 + 1 * j.val = win0_3.index t (1 : Fin 2) * 1542 + 1 * j.val; omega
  rw [h2]
  refine congrArg (· + _) (Finset.sum_congr rfl fun k _ => ?_)
  rw [h0 k, h1 k]

/-- Every index of the array is in the one point's block. -/
theorem cover (i : S1x1542.Idx) : ∃ t : Fin cfg0.N, (cfg0.win 3).flush t = true ∧ i ∈ ((cfg0.win 3).blk t).view.set := by
  have hi0 : (i 0).val < 1 := (i 0).isLt
  have hi1 : (i 1).val < 1542 := (i 1).isLt
  obtain ⟨-, -, -, -, -, -, e6, e7⟩ := idx_facts t0_0
  refine ⟨t0_0, flush0_3 _, ?_⟩
  show i ∈ ((View.whole main_v1).slice (win0_3.rect t0_0)).set
  rw [View.set_slice_whole, Rect.mem_set_unit]
  intro a
  match a with
  | ⟨0, _⟩ => show win0_3.index t0_0 (0 : Fin 2) * 1 ≤ (i 0).val ∧ (i 0).val < win0_3.index t0_0 (0 : Fin 2) * 1 + 1; omega
  | ⟨1, _⟩ => show win0_3.index t0_0 (1 : Fin 2) * 1542 ≤ (i 1).val ∧ (i 1).val < win0_3.index t0_0 (1 : Fin 2) * 1542 + 1542; omega

/-- After the region the result array holds the projection. -/
theorem final (c : Dev nD) : (dat0 V c).arrAt 3 cfg0.N
    = proj (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.R0

end
-- ==== Proof.Region1.lean ====
/-
  The content-addressing statistics: for every row of the memory, its dot product with the key and its Euclidean norm.

  The region walks the memory in eight blocks of 2048 rows. At a block the body multiplies each row by the key (the key
  spread down the rows), sums along the row, and for the norm sums the row's squares and takes the square root. So entry
  (p, 0) of what a point writes depends on row p of its block only, and the two result columns are, row by row, the sum
  over the 512 columns of memory × key and the square root of the sum of the memory's squares.
-/
import proofs.«139971_j5454608466465_1_alg».proof.Proof.Gen.KernelIdeal.Frame
import proofs.«139971_j5454608466465_1_alg».proof.Proof.LibRowLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- A lane sum from the zero word, read at a row: the sum over the row. -/
theorem rowsum_apply (src : FVec Ideal S2048x512 .f32) (h : S2048x512.Reduces [1] S2048) (hφ : FKind.Formats FTy.f32)
    (hacc : (0x00000000#32 : BitVec 32) = 0x00000000#32) (p : Fin 2048) :
    multiReduction .add [1] S2048 src 0x00000000#32 h hφ hacc (ix1 p) = ∑ j : Fin 512, src (ix2 p j) := by
  refine (Ideal.multiReduction_add_single src 0x00000000#32 h hφ hacc (ix1 p)).trans ?_
  refine Finset.sum_congr rfl fun j _ => congrArg src (funext fun a => Fin.ext ?_)
  match a with
  | ⟨0, _⟩ => rfl
  | ⟨1, _⟩ => rfl

/-- The first payload at row p: the row's products with the key, summed. -/
theorem pay1_apply (x0 : FVec Ideal S2048x512 .f32) (x1 : FVec Ideal S1x512 .f32) (p : Fin 2048) :
    k1_pay1 x0 x1 (ix2 p (0 : Fin 1)) = ∑ j : Fin 512, x0 (ix2 p j) * x1 (ix2 (0 : Fin 1) j) := by
  unfold k1_pay1
  refine (RowLayout.shapeCast_a_a1_apply _ _ p 0).trans ?_
  refine (rowsum_apply _ _ _ _ p).trans ?_
  refine Finset.sum_congr rfl fun j _ => ?_
  refine congrArg (x0 (ix2 p j) * ·) ?_
  rw [shapeCast_self]
  exact broadcastTo_apply x1 _ (ix2 p j) (ix2 (0 : Fin 1) j) (fun a => by
    match a with
    | ⟨0, _⟩ => rfl
    | ⟨1, _⟩ => rfl)

/-- The second payload at row p: the square root of the row's sum of squares. -/
theorem pay2_apply (x0 : FVec Ideal S2048x512 .f32) (p : Fin 2048) :
    k1_pay2 (F := Ideal) x0 (ix2 p (0 : Fin 1)) = Ideal.sqrt (∑ j : Fin 512, x0 (ix2 p j) * x0 (ix2 p j)) := by
  unfold k1_pay2
  show Ideal.sqrt _ = _
  refine congrArg Ideal.sqrt ?_
  refine (RowLayout.shapeCast_a_a1_apply _ _ p 0).trans ?_
  exact rowsum_apply _ _ _ _ p

/-! ## From blocks to the two columns -/

variable (V : (c : Dev nD) → (b : Ref sig .tc) → Buf (Elt Ideal) ((c : Thread nD τ).loc b))

/-- Row by row, the sum over the columns of memory × key. -/
def dotCol (mem : S16384x512.Idx → EReal) (k : S1x512.Idx → EReal) : S16384x1.Idx → EReal :=
  fun i => ∑ j : Fin 512, mem (ix2 (⟨(i 0).val, (i 0).isLt⟩ : Fin 16384) j) * k (ix2 (0 : Fin 1) j)

/-- Row by row, the square root of the sum of the memory's squares. -/
def normCol (mem : S16384x512.Idx → EReal) : S16384x1.Idx → EReal :=
  fun i => Ideal.sqrt (∑ j : Fin 512, mem (ix2 (⟨(i 0).val, (i 0).isLt⟩ : Fin 16384) j) * mem (ix2 (⟨(i 0).val, (i 0).isLt⟩ : Fin 16384) j))

/-- The printed index maps over the grid: the memory's block and both results' blocks sit at row block t, the key's
    block at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- An entry of the memory's block at point t is the memory's entry 2048·t rows further down. -/
theorem mem_blk (c : Dev nD) (t : Fin cfg1.N) (p : Fin 2048) (j : Fin 512) :
    iblk1 V c 0 t (ix2 p j) = V c (Pipeline.arrRef spec1 0) (ix2 (⟨t.val * 2048 + p.val, by
      have := t.isLt; have hN : cfg1.N = 8 := N_1; have := p.isLt; omega⟩ : Fin 16384) j) := by
  obtain ⟨e0, e1, -⟩ := idx_facts t
  show V c (Pipeline.arrRef spec1 0) (((cfg1.win 0).blk t).view.emb (ix2 p j)) = _
  refine congrArg (V c (Pipeline.arrRef spec1 0)) (funext fun a => Fin.ext ?_)
  match a with
  | ⟨0, _⟩ => show win1_0.index t (0 : Fin 2) * 2048 + 1 * p.val = t.val * 2048 + p.val; omega
  | ⟨1, _⟩ => show win1_0.index t (1 : Fin 2) * 512 + 1 * j.val = j.val; omega

/-- The key's block at any point is the key. -/
theorem key_blk (c : Dev nD) (t : Fin cfg1.N) (j : Fin 512) :
    iblk1 V c 1 t (ix2 (0 : Fin 1) j) = V c (Pipeline.arrRef spec1 1) (ix2 (0 : Fin 1) j) := by
  obtain ⟨-, -, e2, e3, -⟩ := idx_facts t
  show V c (Pipeline.arrRef spec1 1) (((cfg1.win 1).blk t).view.emb (ix2 (0 : Fin 1) j)) = _
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 512 + 1 * j.val = j.val; omega

/-- What point t writes back into the first result is block t of the row sums. -/
theorem flushed2_eq (c : Dev nD) (t : Fin cfg1.N) :
    (dat1 V c).flushed 2 t = ((cfg1.win 2).blk t).view.read (Elt Ideal)
      (dotCol (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S2048x512) hz, View.ld_unit_zero (S := S1x512) hz]
  obtain ⟨-, -, -, -, e4, e5, -⟩ := idx_facts t
  funext y
  obtain ⟨p, rfl⟩ : ∃ p : Fin 2048, y = ix2 p (0 : Fin 1) := ⟨y 0, by
    funext a; match a with
    | ⟨0, _⟩ => rfl
    | ⟨1, _⟩ => exact Fin.ext (by have h1 : (y 1).val < 1 := (y 1).isLt; show (y 1).val = 0; omega)⟩
  refine (pay1_apply _ _ p).trans ?_
  show _ = dotCol _ _ (((cfg1.win 2).blk t).view.emb (ix2 p (0 : Fin 1)))
  unfold dotCol
  refine Finset.sum_congr rfl fun j _ => ?_
  rw [mem_blk V c t p j, key_blk V c t j]
  refine congrArg (· * _) (congrArg (V c (Pipeline.arrRef spec1 0)) (funext fun a => Fin.ext ?_))
  match a with
  | ⟨0, _⟩ => show t.val * 2048 + p.val = win1_2.index t (0 : Fin 2) * 2048 + 1 * p.val; omega
  | ⟨1, _⟩ => rfl

/-- What point t writes back into the second result is block t of the row norms. -/
theorem flushed3_eq (c : Dev nD) (t : Fin cfg1.N) :
    (dat1 V c).flushed 3 t = ((cfg1.win 3).blk t).view.read (Elt Ideal) (normCol (V c (Pipeline.arrRef spec1 0))) := by
  show (cfg1.win 3).cut (grid1.coords t) ((dat1 V c).after 3 t) = _
  rw [after1_3]
  unfold out1_3
  rw [View.canon_unit_zero hz]
  simp only [View.ld_unit_zero (S := S2048x512) hz]
  obtain ⟨-, -, -, -, -, -, e6, e7⟩ := idx_facts t
  funext y
  obtain ⟨p, rfl⟩ : ∃ p : Fin 2048, y = ix2 p (0 : Fin 1) := ⟨y 0, by
    funext a; match a with
    | ⟨0, _⟩ => rfl
    | ⟨1, _⟩ => exact Fin.ext (by have h1 : (y 1).val < 1 := (y 1).isLt; show (y 1).val = 0; omega)⟩
  refine (pay2_apply _ p).trans ?_
  show _ = normCol _ (((cfg1.win 3).blk t).view.emb (ix2 p (0 : Fin 1)))
  unfold normCol
  refine congrArg Ideal.sqrt (Finset.sum_congr rfl fun j _ => ?_)
  rw [mem_blk V c t p j]
  have e : (ix2 (⟨t.val * 2048 + p.val, by
      have := t.isLt; have hN : cfg1.N = 8 := N_1; have := p.isLt; omega⟩ : Fin 16384) j : S16384x512.Idx)
      = ix2 (⟨((((cfg1.win 3).blk t).view.emb (ix2 p (0 : Fin 1))) 0).val, ((((cfg1.win 3).blk t).view.emb (ix2 p (0 : Fin 1))) 0).isLt⟩ : Fin 16384) j :=
    funext fun a => Fin.ext (by
      match a with
      | ⟨0, _⟩ => show t.val * 2048 + p.val = win1_3.index t (0 : Fin 2) * 2048 + 1 * p.val; omega
      | ⟨1, _⟩ => rfl)
  rw [e]

/-- An index of a result column is in point t's block iff its row is among the block's 2048 rows. -/
theorem mem_blk2 (t : Fin cfg1.N) (i : S16384x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v30_0).slice (win1_2.rect t)).set ↔ _
  rw [View.set_slice_whole, Rect.mem_set_unit]
  exact Iff.rfl
theorem mem_blk3 (t : Fin cfg1.N) (i : S16384x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v30_1).slice (win1_3.rect t)).set ↔ _
  rw [View.set_slice_whole, Rect.mem_set_unit]
  exact Iff.rfl

/-- Row r of a result column lies in the block of point r / 2048. -/
theorem cover2 (i : S16384x1.Idx) : ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 8 := N_1
  have ht : (i 0).val / 2048 < cfg1.N := by omega
  obtain ⟨-, -, -, -, e4, e5, -⟩ := idx_facts ⟨(i 0).val / 2048, ht⟩
  have e4' : win1_2.index ⟨(i 0).val / 2048, ht⟩ (0 : Fin 2) = (i 0).val / 2048 := e4
  refine ⟨⟨(i 0).val / 2048, ht⟩, flush1_2 _, ?_⟩
  rw [mem_blk2]
  intro a
  match a with
  | ⟨0, _⟩ =>
    show win1_2.index ⟨(i 0).val / 2048, ht⟩ (0 : Fin 2) * 2048 ≤ (i 0).val ∧ (i 0).val < win1_2.index ⟨(i 0).val / 2048, ht⟩ (0 : Fin 2) * 2048 + 2048
    omega
  | ⟨1, _⟩ =>
    show win1_2.index ⟨(i 0).val / 2048, ht⟩ (1 : Fin 2) * 1 ≤ (i 1).val ∧ (i 1).val < win1_2.index ⟨(i 0).val / 2048, ht⟩ (1 : Fin 2) * 1 + 1
    omega
theorem cover3 (i : S16384x1.Idx) : ∃ t : Fin cfg1.N, (cfg1.win 3).flush t = true ∧ i ∈ ((cfg1.win 3).blk t).view.set := by
  have hi0 : (i 0).val < 16384 := (i 0).isLt
  have hi1 : (i 1).val < 1 := (i 1).isLt
  have hN : cfg1.N = 8 := N_1
  have ht : (i 0).val / 2048 < cfg1.N := by omega
  obtain ⟨-, -, -, -, -, -, e6, e7⟩ := idx_facts ⟨(i 0).val / 2048, ht⟩
  have e6' : win1_3.index ⟨(i 0).val / 2048, ht⟩ (0 : Fin 2) = (i 0).val / 2048 := e6
  refine ⟨⟨(i 0).val / 2048, ht⟩, flush1_3 _, ?_⟩
  rw [mem_blk3]
  intro a
  match a with
  | ⟨0, _⟩ =>
    show win1_3.index ⟨(i 0).val / 2048, ht⟩ (0 : Fin 2) * 2048 ≤ (i 0).val ∧ (i 0).val < win1_3.index ⟨(i 0).val / 2048, ht⟩ (0 : Fin 2) * 2048 + 2048
    omega
  | ⟨1, _⟩ =>
    show win1_3.index ⟨(i 0).val / 2048, ht⟩ (1 : Fin 2) * 1 ≤ (i 1).val ∧ (i 1).val < win1_3.index ⟨(i 0).val / 2048, ht⟩ (1 : Fin 2) * 1 + 1
    omega

/-- After the region the first result column holds the row sums of memory × key … -/
theorem final2 (c : Dev nD) : (dat1 V c).arrAt 2 cfg1.N = dotCol (V c (Pipeline.arrRef spec1 0)) (V c (Pipeline.arrRef spec1 1)) :=
  (dat1 V c).arrAt_eq_of_cover 2 _ (fun t _ => flushed2_eq V c t) cover2
/-- … and the second the rows' norms. -/
theorem final3 (c : Dev nD) : (dat1 V c).arrAt 3 cfg1.N = normCol (V c (Pipeline.arrRef spec1 0)) :=
  (dat1 V c).arrAt_eq_of_cover 3 _ (fun t _ => flushed3_eq V c t) cover3

end Cert.KernelIdeal.R1

end
-- ==== Proof.Region2.lean ====
/-
  The erase / add write: every memory entry (r, j) becomes memory · (1 − w(r) · e(j)) + w(r) · a(j).

  The region walks the memory in eight blocks of 2048 rows; at a block the body spreads the weight column along the rows'
  512 entries and the erase and add rows down the 2048 rows, and combines them entry by entry. So what a point writes at
  (p, j) depends on the memory at (p, j), the weight at (p, 0) and the two rows at (0, j) only, and the result array is
  that one formula at every index.
-/
import proofs.«139971_j5454608466465_1_alg».proof.Proof.Gen.KernelIdeal.Frame
import proofs.«139971_j5454608466465_1_alg».proof.Proof.LibRowLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The payload at (p, j). -/
theorem pay_apply (x0 : FVec Ideal S2048x512 .f32) (x1 : FVec Ideal S2048x1 .f32) (x3 x5 : FVec Ideal S1x512 .f32)
    (p : Fin 2048) (j : Fin 512) :
    k2_pay1 (F := Ideal) x0 x1 x3 x5 (ix2 p j)
      = x0 (ix2 p j) * (Ideal.ofBits .f32 0x3F800000#32 - x1 (ix2 p (0 : Fin 1)) * x3 (ix2 (0 : Fin 1) j))
        + x1 (ix2 p (0 : Fin 1)) * x5 (ix2 (0 : Fin 1) j) := by
  have hb1 : broadcastTo S2048x512 x1 broadcasts_S2048x1_S2048x512 (ix2 p j) = x1 (ix2 p (0 : Fin 1)) :=
    RowLayout.broadcastTo_a1_ab_apply x1 _ p j
  have hb3 : broadcastTo S2048x512 x3 broadcasts_S1x512_S2048x512 (ix2 p j) = x3 (ix2 (0 : Fin 1) j) :=
    broadcastTo_apply x3 _ (ix2 p j) (ix2 (0 : Fin 1) j) (fun a => by
      match a with
      | ⟨0, _⟩ => rfl
      | ⟨1, _⟩ => rfl)
  have hb5 : broadcastTo S2048x512 x5 broadcasts_S1x512_S2048x512 (ix2 p j) = x5 (ix2 (0 : Fin 1) j) :=
    broadcastTo_apply x5 _ (ix2 p j) (ix2 (0 : Fin 1) j) (fun a => by
      match a with
      | ⟨0, _⟩ => rfl
      | ⟨1, _⟩ => rfl)
  unfold k2_pay1
  simp only [shapeCast_self]
  show x0 (ix2 p j) * (Ideal.ofBits .f32 0x3F800000#32
      - broadcastTo S2048x512 x1 broadcasts_S2048x1_S2048x512 (ix2 p j) * broadcastTo S2048x512 x3 broadcasts_S1x512_S2048x512 (ix2 p j))
    + broadcastTo S2048x512 x1 broadcasts_S2048x1_S2048x512 (ix2 p j) * broadcastTo S2048x512 x5 broadcasts_S1x512_S2048x512 (ix2 p j) = _
  rw [hb1, hb3, hb5]

/-! ## From blocks to the array -/

variable (V : (c : Dev nD) → (b : Ref sig .tc) → Buf (Elt Ideal) ((c : Thread nD τ).loc b))

/-- Entry by entry: memory · (1 − w · e) + w · a. -/
def written (mem : S16384x512.Idx → EReal) (w : S16384x1.Idx → EReal) (e a : S1x512.Idx → EReal) : S16384x512.Idx → EReal :=
  fun i => mem i * (Ideal.ofBits .f32 0x3F800000#32
      - w (ix2 (⟨(i 0).val, (i 0).isLt⟩ : Fin 16384) (0 : Fin 1)) * e (ix2 (0 : Fin 1) (⟨(i 1).val, (i 1).isLt⟩ : Fin 512)))
    + w (ix2 (⟨(i 0).val, (i 0).isLt⟩ : Fin 16384) (0 : Fin 1)) * a (ix2 (0 : Fin 1) (⟨(i 1).val, (i 1).isLt⟩ : Fin 512))

/-- The printed index maps over the grid: the memory's, the weights' and the result's blocks sit at row block t, the two
    rows' blocks at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The memory's block at point t is read where the result's block is written. -/
theorem blk0 (c : Dev nD) (t : Fin cfg2.N) (p : Fin 2048) (j : Fin 512) :
    iblk2 V c 0 t (ix2 p j) = V c (Pipeline.arrRef spec2 0) (((cfg2.win 4).blk t).view.emb (ix2 p j)) := by
  obtain ⟨e0, e1, -, -, -, -, -, -, e8, e9⟩ := idx_facts t
  show V c (Pipeline.arrRef spec2 0) (((cfg2.win 0).blk t).view.emb (ix2 p j)) = _
  refine congrArg (V c (Pipeline.arrRef spec2 0)) (funext fun a => Fin.ext ?_)
  match a with
  | ⟨0, _⟩ => show win2_0.index t (0 : Fin 2) * 2048 + 1 * p.val = win2_4.index t (0 : Fin 2) * 2048 + 1 * p.val; omega
  | ⟨1, _⟩ => show win2_0.index t (1 : Fin 2) * 512 + 1 * j.val = win2_4.index t (1 : Fin 2) * 512 + 1 * j.val; omega

/-- The weights' block at point t is the weight column 2048·t rows further down. -/
theorem blk1 (c : Dev nD) (t : Fin cfg2.N) (p : Fin 2048) (q : Fin 16384) (hq : q.val = t.val * 2048 + p.val) :
    iblk2 V c 1 t (ix2 p (0 : Fin 1)) = V c (Pipeline.arrRef spec2 1) (ix2 q (0 : Fin 1)) := by
  obtain ⟨-, -, e2, e3, -⟩ := idx_facts t
  show V c (Pipeline.arrRef spec2 1) (((cfg2.win 1).blk t).view.emb (ix2 p (0 : Fin 1))) = _
  refine congrArg (V c (Pipeline.arrRef spec2 1)) (funext fun a => Fin.ext ?_)
  match a with
  | ⟨0, _⟩ => show win2_1.index t (0 : Fin 2) * 2048 + 1 * p.val = q.val; omega
  | ⟨1, _⟩ => show win2_1.index t (1 : Fin 2) * 1 + 1 * 0 = 0; omega

/-- The erase row's block at any point is the erase row. -/
theorem blk2 (c : Dev nD) (t : Fin cfg2.N) (j : Fin 512) :
    iblk2 V c 2 t (ix2 (0 : Fin 1) j) = V c (Pipeline.arrRef spec2 2) (ix2 (0 : Fin 1) j) := by
  obtain ⟨-, -, -, -, e4, e5, -⟩ := idx_facts t
  show V c (Pipeline.arrRef spec2 2) (((cfg2.win 2).blk t).view.emb (ix2 (0 : Fin 1) j)) = _
  refine congrArg (V c (Pipeline.arrRef spec2 2)) (funext fun a => Fin.ext ?_)
  match a with
  | ⟨0, _⟩ => show win2_2.index t (0 : Fin 2) * 1 + 1 * 0 = 0; omega
  | ⟨1, _⟩ => show win2_2.index t (1 : Fin 2) * 512 + 1 * j.val = j.val; omega

/-- The add row's block at any point is the add row. -/
theorem blk3 (c : Dev nD) (t : Fin cfg2.N) (j : Fin 512) :
    iblk2 V c 3 t (ix2 (0 : Fin 1) j) = V c (Pipeline.arrRef spec2 3) (ix2 (0 : Fin 1) j) := by
  obtain ⟨-, -, -, -, -, -, e6, e7, -⟩ := idx_facts t
  show V c (Pipeline.arrRef spec2 3) (((cfg2.win 3).blk t).view.emb (ix2 (0 : Fin 1) j)) = _
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 512 + 1 * j.val = j.val; omega

/-- The written array at an index of point t's block, by the index's row and column. -/
theorem written_emb (mem : S16384x512.Idx → EReal) (w : S16384x1.Idx → EReal) (e a : S1x512.Idx → EReal)
    (i : S16384x512.Idx) (q : Fin 16384) (j : Fin 512) (hq : q.val = (i 0).val) (hj : j.val = (i 1).val) :
    written mem w e a i = mem i * (Ideal.ofBits .f32 0x3F800000#32 - w (ix2 q (0 : Fin 1)) * e (ix2 (0 : Fin 1) j))
      + w (ix2 q (0 : Fin 1)) * a (ix2 (0 : Fin 1) j) := by
  unfold written
  have eq : (⟨(i 0).val, (i 0).isLt⟩ : Fin 16384) = q := Fin.ext hq.symm
  have ej : (⟨(i 1).val, (i 1).isLt⟩ : Fin 512) = j := Fin.ext hj.symm
  rw [eq, ej]

set_option maxHeartbeats 1000000 in
/-- What point t writes back is block t of the written array. -/
theorem flushed_eq (c : Dev nD) (t : Fin cfg2.N) :
    (dat2 V c).flushed 4 t = ((cfg2.win 4).blk t).view.read (Elt Ideal)
      (written (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S2048x512) hz, View.ld_unit_zero (S := S2048x1) hz, View.ld_unit_zero (S := S1x512) hz]
  obtain ⟨-, -, -, -, -, -, -, -, e8, e9⟩ := idx_facts t
  have ht : t.val < 8 := by have hN : cfg2.N = 8 := N_2; have := t.isLt; omega
  funext y
  obtain ⟨p, j, rfl⟩ : ∃ (p : Fin 2048) (j : Fin 512), y = ix2 p j := ⟨y 0, y 1, eq_ix2 y⟩
  have hp : p.val < 2048 := p.isLt
  have hj : j.val < 512 := j.isLt
  refine (pay_apply _ _ _ _ p j).trans ?_
  refine Eq.trans ?_ (written_emb _ _ _ _ (((cfg2.win 4).blk t).view.emb (ix2 p j)) (⟨t.val * 2048 + p.val, by omega⟩ : Fin 16384) j
    (by show t.val * 2048 + p.val = win2_4.index t (0 : Fin 2) * 2048 + 1 * p.val; omega)
    (by show j.val = win2_4.index t (1 : Fin 2) * 512 + 1 * j.val; omega)).symm
  rw [blk0 V c t p j, blk1 V c t p (⟨t.val * 2048 + p.val, by omega⟩ : Fin 16384) rfl, blk2 V c t j, blk3 V c t j]

/-- An index of the array is in point t's block iff its row is among the block's 2048 rows. -/
theorem mem_blk (t : Fin cfg2.N) (i : S16384x512.Idx) :
    i ∈ ((cfg2.win 4).blk t).view.set ↔ ∀ a : Fin 2, win2_4.index t a * S2048x512.size a ≤ (i a).val ∧ (i a).val < win2_4.index t a * S2048x512.size a + S2048x512.size a := by
  show i ∈ ((View.whole main_v85).slice (win2_4.rect t)).set ↔ _
  rw [View.set_slice_whole, Rect.mem_set_unit]
  exact Iff.rfl

/-- Row r of the array lies in the block of point r / 2048. -/
theorem cover (i : S16384x512.Idx) : ∃ t : Fin cfg2.N, (cfg2.win 4).flush t = true ∧ i ∈ ((cfg2.win 4).blk t).view.set := by
  have hi0 : (i 0).val < 16384 := (i 0).isLt
  have hi1 : (i 1).val < 512 := (i 1).isLt
  have hN : cfg2.N = 8 := N_2
  have ht : (i 0).val / 2048 < cfg2.N := by omega
  obtain ⟨-, -, -, -, -, -, -, -, e8, e9⟩ := idx_facts ⟨(i 0).val / 2048, ht⟩
  have e8' : win2_4.index ⟨(i 0).val / 2048, ht⟩ (0 : Fin 2) = (i 0).val / 2048 := e8
  refine ⟨⟨(i 0).val / 2048, ht⟩, flush2_4 _, ?_⟩
  rw [mem_blk]
  intro a
  match a with
  | ⟨0, _⟩ =>
    show win2_4.index ⟨(i 0).val / 2048, ht⟩ (0 : Fin 2) * 2048 ≤ (i 0).val ∧ (i 0).val < win2_4.index ⟨(i 0).val / 2048, ht⟩ (0 : Fin 2) * 2048 + 2048
    omega
  | ⟨1, _⟩ =>
    show win2_4.index ⟨(i 0).val / 2048, ht⟩ (1 : Fin 2) * 512 ≤ (i 1).val ∧ (i 1).val < win2_4.index ⟨(i 0).val / 2048, ht⟩ (1 : Fin 2) * 512 + 512
    omega

/-- After the region the result array holds the written memory. -/
theorem final (c : Dev nD) : (dat2 V c).arrAt 4 cfg2.N
    = written (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) cover

end Cert.KernelIdeal.R2

end
-- ==== Proof.ColRow.lean ====
/-
  Columns against rows.

  One program keeps a length-16384 vector as a [16384, 1] column, the other as a [1, 16384] row. Two such arrays are
  the same vector when the column at (r, 0) is the row at (0, r) for every r. This relation is kept by every step both
  programs take on the vector: a pointwise operation, a scalar spread over the vector, the sum and the maximum over the
  long axis, a rotation by one place, and a reshape or a transposition between the two layouts.
-/
import Idealize.ShloMosaic.Lib.Pipeline.Value
import Idealize.ShloMosaic.Lib.ValueIdx
import Idealize.ShloMosaic.PureOps.Ideal.Laws
import Idealize.ShloMosaic.PureOps.Reduce

noncomputable section

namespace Cert.ColRow

open Idealize.ShloMosaic Idealize.ShloMosaic.ValueIdx

abbrev SC : Shape := ⟨2, ![16384, 1]⟩
abbrev SR : Shape := ⟨2, ![1, 16384]⟩
abbrev S11 : Shape := ⟨2, ![1, 1]⟩
abbrev S1v : Shape := ⟨1, ![1]⟩
abbrev S0 : Shape := ⟨0, ![]⟩

variable {α : Type}

/-- The column `x` and the row `y` are one vector. -/
def ColRow (x : SC.Idx → α) (y : SR.Idx → α) : Prop :=
  ∀ r : Fin 16384, x (ix2 r (0 : Fin 1)) = y (ix2 (0 : Fin 1) r)

/-- An index of the column is (r, 0). -/
theorem col_idx (i : SC.Idx) : i = ix2 (i 0) (0 : Fin 1) := by
  funext a; match a with
  | ⟨0, _⟩ => rfl
  | ⟨1, _⟩ => exact Fin.ext (by have h1 : (i 1).val < 1 := (i 1).isLt; show (i 1).val = 0; omega)

/-- An index of the row is (0, r). -/
theorem row_idx (i : SR.Idx) : i = ix2 (0 : Fin 1) (i 1) := by
  funext a; match a with
  | ⟨0, _⟩ => exact Fin.ext (by have h1 : (i 0).val < 1 := (i 0).isLt; show (i 0).val = 0; omega)
  | ⟨1, _⟩ => rfl

/-! ## Pointwise operations -/

theorem map₁ {β : Type} (g : α → β) {x : SC.Idx → α} {y : SR.Idx → α} (h : ColRow x y) :
    ColRow (fun i => g (x i)) (fun i => g (y i)) := fun r => congrArg g (h r)

theorem map₂ {β : Type} (g : α → α → β) {x x' : SC.Idx → α} {y y' : SR.Idx → α} (h : ColRow x y) (h' : ColRow x' y') :
    ColRow (fun i => g (x i) (x' i)) (fun i => g (y i) (y' i)) := fun r => congrArg₂ g (h r) (h' r)

section Pointwise
variable {x x' : FVec Ideal SC .f32} {y y' : FVec Ideal SR .f32}

theorem cr_mulf (h : ColRow x y) (h' : ColRow x' y') : ColRow (mulf x x') (mulf y y') :=
  fun r => congrArg₂ FloatOps.mulf (h r) (h' r)
theorem cr_addf (h : ColRow x y) (h' : ColRow x' y') : ColRow (addf x x') (addf y y') :=
  fun r => congrArg₂ FloatOps.addf (h r) (h' r)
theorem cr_subf (h : ColRow x y) (h' : ColRow x' y') : ColRow (subf x x') (subf y y') :=
  fun r => congrArg₂ FloatOps.subf (h r) (h' r)
theorem cr_divf (h : ColRow x y) (h' : ColRow x' y') : ColRow (Host.divf x x') (Host.divf y y') :=
  fun r => congrArg₂ FloatOps.hostDivf (h r) (h' r)
theorem cr_powf (h : ColRow x y) (h' : ColRow x' y') : ColRow (Host.powf x x') (Host.powf y y') :=
  fun r => congrArg₂ FloatOps.hostPowf (h r) (h' r)
theorem cr_exp (h : ColRow x y) : ColRow (Host.exp x) (Host.exp y) :=
  fun r => congrArg (FloatOps.hostUnary .exp) (h r)
end Pointwise

/-! ## Scalars spread over the vector -/

/-- A scalar spread over the column and over the row. -/
theorem cr_splat (c : S0.Idx → α) (hc : S0.BroadcastsInDim SC ![]) (hr : S0.BroadcastsInDim SR ![]) :
    ColRow (broadcastInDim SC ![] hc c) (broadcastInDim SR ![] hr c) := fun r => by
  rw [broadcastInDim_apply _ hc c _ ix0 (fun a => a.elim0), broadcastInDim_apply _ hr c _ ix0 (fun a => a.elim0)]

/-- The one entry of a [1, 1] array, as a scalar spread over the column, and the array spread over the row. -/
theorem cr_splat11 (s : S11.Idx → α) (hs : S11.ShapeCasts S0) (hc : S0.BroadcastsInDim SC ![])
    (hr : S11.BroadcastsInDim SR ![0, 1]) :
    ColRow (broadcastInDim SC ![] hc (shapeCast S0 s hs)) (broadcastInDim SR ![0, 1] hr s) := fun r => by
  rw [broadcastInDim_apply _ hc _ _ ix0 (fun a => a.elim0),
    shapeCast_apply s hs ix0 (ix2 (0 : Fin 1) (0 : Fin 1)) (by decide),
    broadcastInDim_apply _ hr s _ (ix2 (0 : Fin 1) (0 : Fin 1)) (fun a => by
      match a with
      | ⟨0, _⟩ => rfl
      | ⟨1, _⟩ => rfl)]

/-- The one entry of a length-1 vector, as a scalar spread over the column, and through [1, 1] over the row. -/
theorem cr_splat1 (v : S1v.Idx → α) (hs : S1v.ShapeCasts S0) (hc : S0.BroadcastsInDim SC ![])
    (h1 : S1v.BroadcastsInDim S11 ![0]) (hr : S11.BroadcastsInDim SR ![0, 1]) :
    ColRow (broadcastInDim SC ![] hc (shapeCast S0 v hs)) (broadcastInDim SR ![0, 1] hr (broadcastInDim S11 ![0] h1 v)) := fun r => by
  rw [broadcastInDim_apply _ hc _ _ ix0 (fun a => a.elim0),
    shapeCast_apply v hs ix0 (ix1 (0 : Fin 1)) (by decide),
    broadcastInDim_apply _ hr _ _ (ix2 (0 : Fin 1) (0 : Fin 1)) (fun a => by
      match a with
      | ⟨0, _⟩ => rfl
      | ⟨1, _⟩ => rfl),
    broadcastInDim_apply _ h1 v _ (ix1 (0 : Fin 1)) (fun a => by
      match a with
      | ⟨0, _⟩ => rfl)]

/-- A length-1 vector spread through [1, 1] over the column (on the second axis first) and over the row (on the first). -/
theorem cr_spread1 (v : S1v.Idx → α) (hc1 : S1v.BroadcastsInDim S11 ![1]) (hc : S11.BroadcastsInDim SC ![0, 1])
    (hr1 : S1v.BroadcastsInDim S11 ![0]) (hr : S11.BroadcastsInDim SR ![0, 1]) :
    ColRow (broadcastInDim SC ![0, 1] hc (broadcastInDim S11 ![1] hc1 v))
      (broadcastInDim SR ![0, 1] hr (broadcastInDim S11 ![0] hr1 v)) := fun r => by
  rw [broadcastInDim_apply _ hc _ _ (ix2 (0 : Fin 1) (0 : Fin 1)) (fun a => by
      match a with
      | ⟨0, _⟩ => rfl
      | ⟨1, _⟩ => rfl),
    broadcastInDim_apply _ hc1 v _ (ix1 (0 : Fin 1)) (fun a => by
      match a with
      | ⟨0, _⟩ => rfl),
    broadcastInDim_apply _ hr _ _ (ix2 (0 : Fin 1) (0 : Fin 1)) (fun a => by
      match a with
      | ⟨0, _⟩ => rfl
      | ⟨1, _⟩ => rfl),
    broadcastInDim_apply _ hr1 v _ (ix1 (0 : Fin 1)) (fun a => by
      match a with
      | ⟨0, _⟩ => rfl)]

/-! ## Between the two layouts -/

/-- A row reshaped into a column is that row. -/
theorem cr_reshape (y : SR.Idx → α) (h : SR.ShapeCasts SC) : ColRow (shapeCast SC y h) y := fun r => by
  rw [shapeCast_apply y h (ix2 r (0 : Fin 1)) (ix2 (0 : Fin 1) r) (by
    rw [Shape.rowMajor_val_two, Shape.rowMajor_val_two]; show 0 * 16384 + r.val = r.val * 1 + 0; omega)]

/-- A row transposed into a column is that row. -/
theorem cr_transpose (y : SR.Idx → α) (h : SR.Transposes [1, 0] SC) : ColRow (transpose SC [1, 0] y h) y := fun r => by
  rw [transpose_apply [1, 0] y h (ix2 r (0 : Fin 1)) (ix2 (0 : Fin 1) r) (fun b => by
    match b with
    | ⟨0, _⟩ => rfl
    | ⟨1, _⟩ => rfl)]

/-- A column reshaped into a row is the row it is one vector with. -/
theorem reshape_eq {x : SC.Idx → α} {y : SR.Idx → α} (hxy : ColRow x y) (h : SC.ShapeCasts SR) : shapeCast SR x h = y := by
  funext i
  obtain ⟨r, rfl⟩ : ∃ r : Fin 16384, i = ix2 (0 : Fin 1) r := ⟨i 1, row_idx i⟩
  rw [shapeCast_apply x h (ix2 (0 : Fin 1) r) (ix2 r (0 : Fin 1)) (by
    rw [Shape.rowMajor_val_two, Shape.rowMajor_val_two]; show r.val * 1 + 0 = 0 * 16384 + r.val; omega)]
  exact hxy r

/-! ## The sum and the maximum over the long axis -/

/-- The sum over the column's rows is the sum over the row's columns. -/
theorem reduceAdd_eq {x : FVec Ideal SC .f32} {y : FVec Ideal SR .f32} (hxy : ColRow x y) (init : S0.Idx → Ideal .f32)
    (hc : SC.ReducesTo [0] S1v) (hr : SR.ReducesTo [1] S1v) (hu : 0 < S0.numel) :
    Host.reduceAdd x init hc hu = Host.reduceAdd y init hr hu := by
  funext j
  simp only [Host.reduceAdd, Ideal.hostReduceAdd_def]
  rw [Ideal.hostReduceAdd_single hc (by decide), Ideal.hostReduceAdd_single hr (by decide)]
  refine congrArg (_ + ·) (Finset.sum_congr rfl fun k _ => ?_)
  have e1 : (Shape.Reduces.lift (s := SC) (a := 0) (t := S1v) (by decide) j k) = ix2 (k : Fin 16384) (0 : Fin 1) :=
    funext fun a => Fin.ext (by
      match a with
      | ⟨0, _⟩ => rfl
      | ⟨1, _⟩ => have h1 : (j 0).val < 1 := (j 0).isLt; show (j 0).val = 0; omega)
  have e2 : (Shape.Reduces.lift (s := SR) (a := 1) (t := S1v) (by decide) j k) = ix2 (0 : Fin 1) (k : Fin 16384) :=
    funext fun a => Fin.ext (by
      match a with
      | ⟨0, _⟩ => have h1 : (j 0).val < 1 := (j 0).isLt; show (j 0).val = 0; omega
      | ⟨1, _⟩ => rfl)
  rw [e1]
  exact (hxy k).trans (congrArg y e2.symm)

/-- The maximum over the column's rows is the maximum over the row's columns. -/
theorem reduceMax_eq {x : FVec Ideal SC .f32} {y : FVec Ideal SR .f32} (hxy : ColRow x y) (init : S0.Idx → Ideal .f32)
    (hc : SC.ReducesTo [0] S1v) (hr : SR.ReducesTo [1] S1v) (hu : 0 < S0.numel) :
    Host.reduce FloatOps.maximumf x init hc hu = Host.reduce FloatOps.maximumf y init hr hu := by
  funext j
  rw [Host.reduce_eq_fold_single FloatOps.maximumf x init hc (by decide) hu j,
    Host.reduce_eq_fold_single FloatOps.maximumf y init hr (by decide) hu j]
  refine congrArg (Finset.fold _ _ · _) (funext fun k => ?_)
  have e1 : (Shape.Reduces.lift (s := SC) (a := 0) (t := S1v) (by decide) j k) = ix2 (k : Fin 16384) (0 : Fin 1) :=
    funext fun a => Fin.ext (by
      match a with
      | ⟨0, _⟩ => rfl
      | ⟨1, _⟩ => have h1 : (j 0).val < 1 := (j 0).isLt; show (j 0).val = 0; omega)
  have e2 : (Shape.Reduces.lift (s := SR) (a := 1) (t := S1v) (by decide) j k) = ix2 (0 : Fin 1) (k : Fin 16384) :=
    funext fun a => Fin.ext (by
      match a with
      | ⟨0, _⟩ => have h1 : (j 0).val < 1 := (j 0).isLt; show (j 0).val = 0; omega
      | ⟨1, _⟩ => rfl)
  show x _ = y _
  rw [e1]
  exact (hxy k).trans (congrArg y e2.symm)

/-! ## A rotation by one place -/

abbrev SCm : Shape := ⟨2, ![16383, 1]⟩
abbrev SRm : Shape := ⟨2, ![1, 16383]⟩

/-- The last entry moved to the front: on the column along the first axis, on the row along the second. -/
theorem cr_roll_fwd {x : SC.Idx → α} {y : SR.Idx → α} (hxy : ColRow x y)
    (hx1 : SC.Slices ![16383, 0] S11) (hx2 : SC.Slices ![0, 0] SCm) (hxc : Shape.Concatenates [S11, SCm] SC 0)
    (hy1 : SR.Slices ![0, 16383] S11) (hy2 : SR.Slices ![0, 0] SRm) (hyc : Shape.Concatenates [S11, SRm] SR 1) :
    ColRow (concatenate SC 0 [⟨S11, extractStridedSlice S11 ![16383, 0] x hx1⟩, ⟨SCm, extractStridedSlice SCm ![0, 0] x hx2⟩] hxc)
      (concatenate SR 1 [⟨S11, extractStridedSlice S11 ![0, 16383] y hy1⟩, ⟨SRm, extractStridedSlice SRm ![0, 0] y hy2⟩] hyc) := fun r => by
  by_cases h0 : r.val = 0
  · rw [concatenate_pair_apply_left 0 _ _ hxc (ix2 r (0 : Fin 1)) rfl (ix2 (0 : Fin 1) (0 : Fin 1)) (fun b => by
        match b with
        | ⟨0, _⟩ => exact h0.symm
        | ⟨1, _⟩ => rfl),
      concatenate_pair_apply_left 1 _ _ hyc (ix2 (0 : Fin 1) r) rfl (ix2 (0 : Fin 1) (0 : Fin 1)) (fun b => by
        match b with
        | ⟨0, _⟩ => rfl
        | ⟨1, _⟩ => exact h0.symm),
      extractStridedSlice_apply _ x hx1 _ (ix2 (⟨16383, by decide⟩ : Fin 16384) (0 : Fin 1)) (fun a => by
        match a with
        | ⟨0, _⟩ => rfl
        | ⟨1, _⟩ => rfl),
      extractStridedSlice_apply _ y hy1 _ (ix2 (0 : Fin 1) (⟨16383, by decide⟩ : Fin 16384)) (fun a => by
        match a with
        | ⟨0, _⟩ => rfl
        | ⟨1, _⟩ => rfl)]
    exact hxy _
  · have hr : r.val < 16384 := r.isLt
    rw [concatenate_pair_apply_right 0 _ _ hxc (ix2 r (0 : Fin 1)) rfl rfl (ix2 (⟨r.val - 1, by omega⟩ : Fin 16383) (0 : Fin 1)) (fun b hb => by
        match b with
        | ⟨0, _⟩ => exact absurd rfl hb
        | ⟨1, _⟩ => rfl) (by show r.val - 1 + 1 = r.val; omega),
      concatenate_pair_apply_right 1 _ _ hyc (ix2 (0 : Fin 1) r) rfl rfl (ix2 (0 : Fin 1) (⟨r.val - 1, by omega⟩ : Fin 16383)) (fun b hb => by
        match b with
        | ⟨0, _⟩ => rfl
        | ⟨1, _⟩ => exact absurd rfl hb) (by show r.val - 1 + 1 = r.val; omega),
      extractStridedSlice_apply _ x hx2 _ (ix2 (⟨r.val - 1, by omega⟩ : Fin 16384) (0 : Fin 1)) (fun a => by
        match a with
        | ⟨0, _⟩ => show r.val - 1 = 0 + (r.val - 1); omega
        | ⟨1, _⟩ => rfl),
      extractStridedSlice_apply _ y hy2 _ (ix2 (0 : Fin 1) (⟨r.val - 1, by omega⟩ : Fin 16384)) (fun a => by
        match a with
        | ⟨0, _⟩ => rfl
        | ⟨1, _⟩ => show r.val - 1 = 0 + (r.val - 1); omega)]
    exact hxy _

/-- The first entry moved to the back. -/
theorem cr_roll_bwd {x : SC.Idx → α} {y : SR.Idx → α} (hxy : ColRow x y)
    (hx1 : SC.Slices ![1, 0] SCm) (hx2 : SC.Slices ![0, 0] S11) (hxc : Shape.Concatenates [SCm, S11] SC 0)
    (hy1 : SR.Slices ![0, 1] SRm) (hy2 : SR.Slices ![0, 0] S11) (hyc : Shape.Concatenates [SRm, S11] SR 1) :
    ColRow (concatenate SC 0 [⟨SCm, extractStridedSlice SCm ![1, 0] x hx1⟩, ⟨S11, extractStridedSlice S11 ![0, 0] x hx2⟩] hxc)
      (concatenate SR 1 [⟨SRm, extractStridedSlice SRm ![0, 1] y hy1⟩, ⟨S11, extractStridedSlice S11 ![0, 0] y hy2⟩] hyc) := fun r => by
  have hr : r.val < 16384 := r.isLt
  by_cases h0 : r.val < 16383
  · rw [concatenate_pair_apply_left 0 _ _ hxc (ix2 r (0 : Fin 1)) rfl (ix2 (⟨r.val, h0⟩ : Fin 16383) (0 : Fin 1)) (fun b => by
        match b with
        | ⟨0, _⟩ => rfl
        | ⟨1, _⟩ => rfl),
      concatenate_pair_apply_left 1 _ _ hyc (ix2 (0 : Fin 1) r) rfl (ix2 (0 : Fin 1) (⟨r.val, h0⟩ : Fin 16383)) (fun b => by
        match b with
        | ⟨0, _⟩ => rfl
        | ⟨1, _⟩ => rfl),
      extractStridedSlice_apply _ x hx1 _ (ix2 (⟨r.val + 1, by omega⟩ : Fin 16384) (0 : Fin 1)) (fun a => by
        match a with
        | ⟨0, _⟩ => show r.val + 1 = 1 + r.val; omega
        | ⟨1, _⟩ => rfl),
      extractStridedSlice_apply _ y hy1 _ (ix2 (0 : Fin 1) (⟨r.val + 1, by omega⟩ : Fin 16384)) (fun a => by
        match a with
        | ⟨0, _⟩ => rfl
        | ⟨1, _⟩ => show r.val + 1 = 1 + r.val; omega)]
    exact hxy _
  · rw [concatenate_pair_apply_right 0 _ _ hxc (ix2 r (0 : Fin 1)) rfl rfl (ix2 (0 : Fin 1) (0 : Fin 1)) (fun b hb => by
        match b with
        | ⟨0, _⟩ => exact absurd rfl hb
        | ⟨1, _⟩ => rfl) (by show 0 + 16383 = r.val; omega),
      concatenate_pair_apply_right 1 _ _ hyc (ix2 (0 : Fin 1) r) rfl rfl (ix2 (0 : Fin 1) (0 : Fin 1)) (fun b hb => by
        match b with
        | ⟨0, _⟩ => rfl
        | ⟨1, _⟩ => exact absurd rfl hb) (by show 0 + 16383 = r.val; omega),
      extractStridedSlice_apply _ x hx2 _ (ix2 (0 : Fin 16384) (0 : Fin 1)) (fun a => by
        match a with
        | ⟨0, _⟩ => rfl
        | ⟨1, _⟩ => rfl),
      extractStridedSlice_apply _ y hy2 _ (ix2 (0 : Fin 1) (0 : Fin 16384)) (fun a => by
        match a with
        | ⟨0, _⟩ => rfl
        | ⟨1, _⟩ => rfl)]
    exact hxy _

/-! ## The long axis' maximum and sum, spread back over the vector -/

/-- The maximum (against a length-1 floor `lo`) spread back over the column and over the row. -/
theorem cr_max_spread {x : FVec Ideal SC .f32} {y : FVec Ideal SR .f32} (hxy : ColRow x y) (lo : FVec Ideal S1v .f32)
    (init : S0.Idx → Ideal .f32) (hcr : SC.ReducesTo [0] S1v) (hrr : SR.ReducesTo [1] S1v) (hu : 0 < S0.numel)
    (hc1 : S1v.BroadcastsInDim S11 ![1]) (hc : S11.BroadcastsInDim SC ![0, 1])
    (hr1 : S1v.BroadcastsInDim S11 ![0]) (hr : S11.BroadcastsInDim SR ![0, 1]) :
    ColRow (broadcastInDim SC ![0, 1] hc (broadcastInDim S11 ![1] hc1 (maximumf lo (Host.reduce FloatOps.maximumf x init hcr hu))))
      (broadcastInDim SR ![0, 1] hr (broadcastInDim S11 ![0] hr1 (maximumf lo (Host.reduce FloatOps.maximumf y init hrr hu)))) := by
  rw [reduceMax_eq hxy init hcr hrr hu]
  exact cr_spread1 _ hc1 hc hr1 hr

/-- The sum spread back over the column and over the row. -/
theorem cr_sum_spread {x : FVec Ideal SC .f32} {y : FVec Ideal SR .f32} (hxy : ColRow x y)
    (init : S0.Idx → Ideal .f32) (hcr : SC.ReducesTo [0] S1v) (hrr : SR.ReducesTo [1] S1v) (hu : 0 < S0.numel)
    (hc1 : S1v.BroadcastsInDim S11 ![1]) (hc : S11.BroadcastsInDim SC ![0, 1])
    (hr1 : S1v.BroadcastsInDim S11 ![0]) (hr : S11.BroadcastsInDim SR ![0, 1]) :
    ColRow (broadcastInDim SC ![0, 1] hc (broadcastInDim S11 ![1] hc1 (Host.reduceAdd x init hcr hu)))
      (broadcastInDim SR ![0, 1] hr (broadcastInDim S11 ![0] hr1 (Host.reduceAdd y init hrr hu))) := by
  rw [reduceAdd_eq hxy init hcr hrr hu]
  exact cr_spread1 _ hc1 hc hr1 hr

/-- A scalar minus the one entry of a [1, 1] array: taken on scalars and spread over the column, or taken on [1, 1]
    arrays and spread over the row. -/
theorem cr_scalar_sub (cst : FVec Ideal S0 .f32) (s : FVec Ideal S11 .f32) (hs : S11.ShapeCasts S0)
    (hc : S0.BroadcastsInDim SC ![]) (h11 : S0.BroadcastsInDim S11 ![]) (hr : S11.BroadcastsInDim SR ![0, 1]) :
    ColRow (broadcastInDim SC ![] hc (subf cst (shapeCast S0 s hs)))
      (broadcastInDim SR ![0, 1] hr (subf (broadcastInDim S11 ![] h11 cst) s)) := fun r => by
  rw [broadcastInDim_apply _ hc _ _ ix0 (fun a => a.elim0),
    broadcastInDim_apply _ hr _ _ (ix2 (0 : Fin 1) (0 : Fin 1)) (fun a => by
      match a with
      | ⟨0, _⟩ => rfl
      | ⟨1, _⟩ => rfl)]
  show FloatOps.subf (cst ix0) (shapeCast S0 s hs ix0) = FloatOps.subf (broadcastInDim S11 ![] h11 cst (ix2 (0 : Fin 1) (0 : Fin 1))) (s (ix2 (0 : Fin 1) (0 : Fin 1)))
  rw [shapeCast_apply s hs ix0 (ix2 (0 : Fin 1) (0 : Fin 1)) (by decide),
    broadcastInDim_apply _ h11 cst _ ix0 (fun a => a.elim0)]

end Cert.ColRow

end
-- ==== Proof.RefLeaves.lean ====
/-
  Where the two programs meet: the three regions' results against the reference's stages.

  The projection region's array is the reference's product-plus-bias; the statistics region's two columns are, as
  vectors, the reference's row of dot products (the order of the two factors is the only difference) and its row of norms;
  and the write region's formula, over a weight column that is the reference's weight row, is the reference's outer
  products (each a sum over one term) combined entry by entry.
-/
import proofs.«139971_j5454608466465_1_alg».proof.Proof.Region0
import proofs.«139971_j5454608466465_1_alg».proof.Proof.Region1
import proofs.«139971_j5454608466465_1_alg».proof.Proof.Region2
import proofs.«139971_j5454608466465_1_alg».proof.Proof.RefRead
import proofs.«139971_j5454608466465_1_alg».proof.Proof.ColRow

set_option maxRecDepth 16384

noncomputable section

namespace Cert.Proof.RefLeaves

open Idealize.ShloMosaic Idealize.ShloMosaic.ValueIdx
open Cert.ReferenceIdeal Cert.ReferenceIdeal.ReadP Cert.ColRow
open Cert.KernelIdeal (R0.proj R1.dotCol R1.normCol R2.written)

variable (x0 : (⟨S1x1024, .f32⟩ : BufTy).Contents (Elt Ideal)) (x1 : (⟨S1x16384, .f32⟩ : BufTy).Contents (Elt Ideal))
  (x2 : (⟨S16384x512, .f32⟩ : BufTy).Contents (Elt Ideal)) (x3 : (⟨S1542x1024, .f32⟩ : BufTy).Contents (Elt Ideal))
  (x4 : (⟨S1542, .f32⟩ : BufTy).Contents (Elt Ideal))

/-- The projection, with the bias as a [1, 1542] row, is the reference's product plus bias. -/
theorem proj_eq (h : Cert.KernelIdeal.S1542.ShapeCasts Cert.KernelIdeal.S1x1542) :
    Cert.KernelIdeal.R0.proj x0 x3 (shapeCast Cert.KernelIdeal.S1x1542 x4 h) = val_main_v3 (F := Ideal) x0 x3 x4 := by
  funext i
  obtain ⟨j, rfl⟩ : ∃ j : Fin 1542, i = ix2 (0 : Fin 1) j := ⟨i 1, by
    funext a; match a with
    | ⟨0, _⟩ => exact Fin.ext (by have h1 : (i 0).val < 1 := (i 0).isLt; show (i 0).val = 0; omega)
    | ⟨1, _⟩ => rfl⟩
  rw [val_main_v3_apply, val_main_v1_apply, val_main_v2_apply]
  unfold Cert.KernelIdeal.R0.proj
  refine congrArg₂ (· + ·) (Finset.sum_congr rfl fun k _ => ?_) ?_
  · rw [val_main_v0_apply]
    refine congrArg₂ (· * ·) (congrArg x0 (funext fun a => Fin.ext ?_)) (congrArg x3 (funext fun a => Fin.ext ?_))
    · match a with
      | ⟨0, _⟩ => rfl
      | ⟨1, _⟩ => rfl
    · match a with
      | ⟨0, _⟩ => rfl
      | ⟨1, _⟩ => rfl
  · refine shapeCast_apply x4 h (ix2 (0 : Fin 1) j) _ ?_
    rw [Shape.rowMajor_val_two, Shape.rowMajor_val_one]
    show j.val = 0 * 1542 + j.val
    omega

/-- The column of row-by-key sums is the reference's row of dot products. -/
theorem dot_colrow : ColRow (Cert.KernelIdeal.R1.dotCol x2 (val_main_v4 (F := Ideal) x0 x3 x4)) (val_main_v35 (F := Ideal) x0 x2 x3 x4) := fun r => by
  rw [val_main_v35_apply]
  unfold Cert.KernelIdeal.R1.dotCol
  refine Finset.sum_congr rfl fun k _ => ?_
  rw [val_main_v34_apply, mul_comm]
  refine congrArg₂ (· * ·) (congrArg _ (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

/-- The column of row norms is the reference's row of norms. -/
theorem norm_colrow : ColRow (Cert.KernelIdeal.R1.normCol x2) (val_main_v37 (F := Ideal) x2) := fun r => by
  rw [val_main_v37_apply, val_main_v32_apply, val_main_call2_v1_apply]
  unfold Cert.KernelIdeal.R1.normCol
  show Ideal.sqrt _ = Ideal.sqrt _
  refine congrArg Ideal.sqrt ?_
  rw [val_main_call2_cst_apply]
  show _ = Ideal.ofBits .f32 0x00000000#32 + _
  rw [Ideal.ofBits_zero_f32, zero_add]
  refine Finset.sum_congr rfl fun k _ => ?_
  rw [val_main_call2_v0_apply]
  have e : (ix2 (⟨((ix2 r (0 : Fin 1) : SC.Idx) 0).val, ((ix2 r (0 : Fin 1) : SC.Idx) 0).isLt⟩ : Fin 16384) k : Cert.KernelIdeal.S16384x512.Idx)
      = idx_main_call2_v1 (idx_main_v37 (ix2 (0 : Fin 1) r)) k := funext fun a => Fin.ext (by
    match a with
    | ⟨0, _⟩ => rfl
    | ⟨1, _⟩ => rfl)
  rw [e]
  rfl

/-- Over a weight column that is the reference's weight row, the written memory is the reference's: each of its two outer
    products is a sum over the one shared index. -/
theorem written_eq (wcol : FVec Ideal SC .f32) (hw : ColRow wcol (val_main_v83 (F := Ideal) x0 x1 x2 x3 x4)) :
    Cert.KernelIdeal.R2.written x2 wcol (val_main_v30 (F := Ideal) x0 x3 x4) (val_main_v31 (F := Ideal) x0 x3 x4)
      = val_main_v91 (F := Ideal) x0 x1 x2 x3 x4 := by
  funext i
  rw [val_main_v91_apply, val_main_v90_apply, val_main_v89_apply, val_main_v88_apply, val_main_cst_12_apply,
    val_main_v85_apply, val_main_v87_apply, Fin.sum_univ_one, Fin.sum_univ_one, val_main_v84_apply, val_main_v86_apply]
  unfold Cert.KernelIdeal.R2.written
  have hr := hw (⟨(i 0).val, (i 0).isLt⟩ : Fin 16384)
  have e1 : idx_main_v84 (lidx_main_v85 i 0) = ix2 (0 : Fin 1) (⟨(i 0).val, (i 0).isLt⟩ : Fin 16384) := funext fun a => Fin.ext (by
    match a with
    | ⟨0, _⟩ => rfl
    | ⟨1, _⟩ => rfl)
  have e2 : idx_main_v86 (lidx_main_v87 i 0) = ix2 (0 : Fin 1) (⟨(i 0).val, (i 0).isLt⟩ : Fin 16384) := funext fun a => Fin.ext (by
    match a with
    | ⟨0, _⟩ => rfl
    | ⟨1, _⟩ => rfl)
  have e3 : ridx_main_v85 i 0 = ix2 (0 : Fin 1) (⟨(i 1).val, (i 1).isLt⟩ : Fin 512) := funext fun a => Fin.ext (by
    match a with
    | ⟨0, _⟩ => rfl
    | ⟨1, _⟩ => rfl)
  have e4 : ridx_main_v87 i 0 = ix2 (0 : Fin 1) (⟨(i 1).val, (i 1).isLt⟩ : Fin 512) := funext fun a => Fin.ext (by
    match a with
    | ⟨0, _⟩ => rfl
    | ⟨1, _⟩ => rfl)
  rw [e1, e2, e3, e4, ← hr]
  rfl

end Cert.Proof.RefLeaves

end
-- ==== Proof.Addressing.lean ====
/-
  The addressing, on columns and on rows.

  From the key, the gates, the shift weights and the sharpening exponent, the statistics (each row's dot product with the
  key and its norm) and the previous weights, both programs compute the new weight vector by the same steps: the cosine
  similarity, a softmax over the 16384 places scaled by the key strength, the interpolation with the previous weights,
  the three-tap circular shift and the sharpening with its normalisation. One program holds the vector as a column, the
  other as a row; step by step the column and the row stay one vector.
-/
import proofs.«139971_j5454608466465_1_alg».proof.KernelIdeal
import proofs.«139971_j5454608466465_1_alg».proof.ReferenceIdeal
import proofs.«139971_j5454608466465_1_alg».proof.Proof.ColRow

set_option maxRecDepth 16384

noncomputable section

namespace Cert.Proof.Addr

open Idealize.ShloMosaic

/-! ## On columns -/

namespace K
open Cert.KernelIdeal Cert.KernelIdeal.Facts₀
variable [Cert.KernelIdeal.Facts₀]

def knorm (k : FVec Ideal S1x512 .f32) : FVec Ideal S1 .f32 :=
  Host.sqrt (Host.reduceAdd (mulf k k) (constant (F := Ideal) S_ .f32 0x00000000#32) reducesTo_S1x512_S1_d1 h_S_)
def sim (k : FVec Ideal S1x512 .f32) (dotc normc : FVec Ideal S16384x1 .f32) : FVec Ideal S16384x1 .f32 :=
  Host.divf dotc (addf (mulf (broadcastInDim S16384x1 ![] bcast_S_S16384x1 (shapeCast S_ (knorm k) shapeCasts_S1_S_)) normc)
    (broadcastInDim S16384x1 ![] bcast_S_S16384x1 (constant (F := Ideal) S_ .f32 0x24E69595#32)))
def ez (z : FVec Ideal S16384x1 .f32) : FVec Ideal S16384x1 .f32 :=
  Host.exp (subf z (broadcastInDim S16384x1 ![0, 1] bcast_S1x1_S16384x1_0_1 (broadcastInDim S1x1 ![1] bcast_S1_S1x1_1
    (maximumf (broadcastInDim S1 ![] bcast_S_S1 (constant (F := Ideal) S_ .f32 0xFF800000#32))
      (Host.reduce FloatOps.maximumf z (constant (F := Ideal) S_ .f32 0xFF800000#32) reducesTo_S16384x1_S1_d0 h_S_)))))
def soft (z : FVec Ideal S16384x1 .f32) : FVec Ideal S16384x1 .f32 :=
  Host.divf (ez z) (broadcastInDim S16384x1 ![0, 1] bcast_S1x1_S16384x1_0_1 (broadcastInDim S1x1 ![1] bcast_S1_S1x1_1
    (Host.reduceAdd (ez z) (constant (F := Ideal) S_ .f32 0x00000000#32) reducesTo_S16384x1_S1_d0 h_S_)))
def gate (g : FVec Ideal S1x1 .f32) (wc : FVec Ideal S16384x1 .f32) (wprev : FVec Ideal S1x16384 .f32) : FVec Ideal S16384x1 .f32 :=
  addf (mulf (broadcastInDim S16384x1 ![] bcast_S_S16384x1 (shapeCast S_ g shapeCasts_S1x1_S_)) wc)
    (mulf (broadcastInDim S16384x1 ![] bcast_S_S16384x1 (subf (constant (F := Ideal) S_ .f32 0x3F800000#32) (shapeCast S_ g shapeCasts_S1x1_S_)))
      (shapeCast S16384x1 wprev shapeCasts_S1x16384_S16384x1))
def wg (k : FVec Ideal S1x512 .f32) (beta g : FVec Ideal S1x1 .f32) (dotc normc : FVec Ideal S16384x1 .f32)
    (wprev : FVec Ideal S1x16384 .f32) : FVec Ideal S16384x1 .f32 :=
  gate g (soft (mulf (broadcastInDim S16384x1 ![] bcast_S_S16384x1 (shapeCast S_ beta shapeCasts_S1x1_S_)) (sim k dotc normc))) wprev
def rollF (x : FVec Ideal S16384x1 .f32) : FVec Ideal S16384x1 .f32 :=
  concatenate S16384x1 0 [⟨S1x1, extractStridedSlice S1x1 ![16383, 0] x slices_S16384x1_S1x1_16383_0⟩,
    ⟨S16383x1, extractStridedSlice S16383x1 ![0, 0] x slices_S16384x1_S16383x1_0_0⟩] concatenates_S1x1_S16383x1_S16384x1_d0
def rollB (x : FVec Ideal S16384x1 .f32) : FVec Ideal S16384x1 .f32 :=
  concatenate S16384x1 0 [⟨S16383x1, extractStridedSlice S16383x1 ![1, 0] x slices_S16384x1_S16383x1_1_0⟩,
    ⟨S1x1, extractStridedSlice S1x1 ![0, 0] x slices_S16384x1_S1x1_0_0⟩] concatenates_S16383x1_S1x1_S16384x1_d0
def shift (s : FVec Ideal S1x3 .f32) (x : FVec Ideal S16384x1 .f32) : FVec Ideal S16384x1 .f32 :=
  addf (addf (mulf (broadcastInDim S16384x1 ![] bcast_S_S16384x1 (shapeCast S_ (extractStridedSlice S1x1 ![0, 0] s slices_S1x3_S1x1_0_0) shapeCasts_S1x1_S_)) (rollF x))
      (mulf (broadcastInDim S16384x1 ![] bcast_S_S16384x1 (shapeCast S_ (extractStridedSlice S1x1 ![0, 1] s slices_S1x3_S1x1_0_1) shapeCasts_S1x1_S_)) x))
    (mulf (broadcastInDim S16384x1 ![] bcast_S_S16384x1 (shapeCast S_ (extractStridedSlice S1x1 ![0, 2] s slices_S1x3_S1x1_0_2) shapeCasts_S1x1_S_)) (rollB x))
def pw (ws : FVec Ideal S16384x1 .f32) (gamma : FVec Ideal S1x1 .f32) : FVec Ideal S16384x1 .f32 :=
  Host.powf (addf ws (broadcastInDim S16384x1 ![] bcast_S_S16384x1 (constant (F := Ideal) S_ .f32 0x24E69595#32)))
    (broadcastInDim S16384x1 ![] bcast_S_S16384x1 (shapeCast S_ gamma shapeCasts_S1x1_S_))
def sharp (ws : FVec Ideal S16384x1 .f32) (gamma : FVec Ideal S1x1 .f32) : FVec Ideal S16384x1 .f32 :=
  Host.divf (pw ws gamma) (broadcastInDim S16384x1 ![0, 1] bcast_S1x1_S16384x1_0_1 (broadcastInDim S1x1 ![1] bcast_S1_S1x1_1
    (Host.reduceAdd (pw ws gamma) (constant (F := Ideal) S_ .f32 0x00000000#32) reducesTo_S16384x1_S1_d0 h_S_)))
/-- The new weights, as a column. -/
def w (k : FVec Ideal S1x512 .f32) (beta g : FVec Ideal S1x1 .f32) (s : FVec Ideal S1x3 .f32) (gamma : FVec Ideal S1x1 .f32)
    (dotc normc : FVec Ideal S16384x1 .f32) (wprev : FVec Ideal S1x16384 .f32) : FVec Ideal S16384x1 .f32 :=
  sharp (shift s (wg k beta g dotc normc wprev)) gamma
end K

/-! ## On rows -/

namespace R
open Cert.ReferenceIdeal Cert.ReferenceIdeal.Facts₀
variable [Cert.ReferenceIdeal.Facts₀]

def knorm (k : FVec Ideal S1x512 .f32) : FVec Ideal S1 .f32 :=
  Host.sqrt (Host.reduceAdd (mulf k k) (constant (F := Ideal) S_ .f32 0x00000000#32) reducesTo_S1x512_S1_d1 h_S_)
def sim (k : FVec Ideal S1x512 .f32) (dotr normr : FVec Ideal S1x16384 .f32) : FVec Ideal S1x16384 .f32 :=
  Host.divf dotr (addf (mulf (broadcastInDim S1x16384 ![0, 1] bcast_S1x1_S1x16384_0_1 (broadcastInDim S1x1 ![0] bcast_S1_S1x1_0 (knorm k))) normr)
    (broadcastInDim S1x16384 ![] bcast_S_S1x16384 (constant (F := Ideal) S_ .f32 0x24E69595#32)))
def ez (z : FVec Ideal S1x16384 .f32) : FVec Ideal S1x16384 .f32 :=
  Host.exp (subf z (broadcastInDim S1x16384 ![0, 1] bcast_S1x1_S1x16384_0_1 (broadcastInDim S1x1 ![0] bcast_S1_S1x1_0
    (maximumf (broadcastInDim S1 ![] bcast_S_S1 (constant (F := Ideal) S_ .f32 0xFF800000#32))
      (Host.reduce FloatOps.maximumf z (constant (F := Ideal) S_ .f32 0xFF800000#32) reducesTo_S1x16384_S1_d1 h_S_)))))
def soft (z : FVec Ideal S1x16384 .f32) : FVec Ideal S1x16384 .f32 :=
  Host.divf (ez z) (broadcastInDim S1x16384 ![0, 1] bcast_S1x1_S1x16384_0_1 (broadcastInDim S1x1 ![0] bcast_S1_S1x1_0
    (Host.reduceAdd (ez z) (constant (F := Ideal) S_ .f32 0x00000000#32) reducesTo_S1x16384_S1_d1 h_S_)))
def gate (g : FVec Ideal S1x1 .f32) (wc wprev : FVec Ideal S1x16384 .f32) : FVec Ideal S1x16384 .f32 :=
  addf (mulf (broadcastInDim S1x16384 ![0, 1] bcast_S1x1_S1x16384_0_1 g) wc)
    (mulf (broadcastInDim S1x16384 ![0, 1] bcast_S1x1_S1x16384_0_1 (subf (broadcastInDim S1x1 ![] bcast_S_S1x1 (constant (F := Ideal) S_ .f32 0x3F800000#32)) g)) wprev)
def wg (k : FVec Ideal S1x512 .f32) (beta g : FVec Ideal S1x1 .f32) (dotr normr wprev : FVec Ideal S1x16384 .f32) : FVec Ideal S1x16384 .f32 :=
  gate g (soft (mulf (broadcastInDim S1x16384 ![0, 1] bcast_S1x1_S1x16384_0_1 beta) (sim k dotr normr))) wprev
def rollF (x : FVec Ideal S1x16384 .f32) : FVec Ideal S1x16384 .f32 :=
  concatenate S1x16384 1 [⟨S1x1, extractStridedSlice S1x1 ![0, 16383] x slices_S1x16384_S1x1_0_16383⟩,
    ⟨S1x16383, extractStridedSlice S1x16383 ![0, 0] x slices_S1x16384_S1x16383_0_0⟩] concatenates_S1x1_S1x16383_S1x16384_d1
def rollB (x : FVec Ideal S1x16384 .f32) : FVec Ideal S1x16384 .f32 :=
  concatenate S1x16384 1 [⟨S1x16383, extractStridedSlice S1x16383 ![0, 1] x slices_S1x16384_S1x16383_0_1⟩,
    ⟨S1x1, extractStridedSlice S1x1 ![0, 0] x slices_S1x16384_S1x1_0_0⟩] concatenates_S1x16383_S1x1_S1x16384_d1
def shift (s : FVec Ideal S1x3 .f32) (x : FVec Ideal S1x16384 .f32) : FVec Ideal S1x16384 .f32 :=
  addf (addf (mulf (broadcastInDim S1x16384 ![0, 1] bcast_S1x1_S1x16384_0_1 (extractStridedSlice S1x1 ![0, 0] s slices_S1x3_S1x1_0_0)) (rollF x))
      (mulf (broadcastInDim S1x16384 ![0, 1] bcast_S1x1_S1x16384_0_1 (extractStridedSlice S1x1 ![0, 1] s slices_S1x3_S1x1_0_1)) x))
    (mulf (broadcastInDim S1x16384 ![0, 1] bcast_S1x1_S1x16384_0_1 (extractStridedSlice S1x1 ![0, 2] s slices_S1x3_S1x1_0_2)) (rollB x))
def pw (ws : FVec Ideal S1x16384 .f32) (gamma : FVec Ideal S1x1 .f32) : FVec Ideal S1x16384 .f32 :=
  Host.powf (addf ws (broadcastInDim S1x16384 ![] bcast_S_S1x16384 (constant (F := Ideal) S_ .f32 0x24E69595#32)))
    (broadcastInDim S1x16384 ![0, 1] bcast_S1x1_S1x16384_0_1 gamma)
def sharp (ws : FVec Ideal S1x16384 .f32) (gamma : FVec Ideal S1x1 .f32) : FVec Ideal S1x16384 .f32 :=
  Host.divf (pw ws gamma) (broadcastInDim S1x16384 ![0, 1] bcast_S1x1_S1x16384_0_1 (broadcastInDim S1x1 ![0] bcast_S1_S1x1_0
    (Host.reduceAdd (pw ws gamma) (constant (F := Ideal) S_ .f32 0x00000000#32) reducesTo_S1x16384_S1_d1 h_S_)))
/-- The new weights, as a row. -/
def w (k : FVec Ideal S1x512 .f32) (beta g : FVec Ideal S1x1 .f32) (s : FVec Ideal S1x3 .f32) (gamma : FVec Ideal S1x1 .f32)
    (dotr normr wprev : FVec Ideal S1x16384 .f32) : FVec Ideal S1x16384 .f32 :=
  sharp (shift s (wg k beta g dotr normr wprev)) gamma
end R

/-! ## The column and the row are one vector -/

open Cert.ColRow

variable [Cert.KernelIdeal.Facts₀] [Cert.ReferenceIdeal.Facts₀]
variable (k : FVec Ideal Cert.KernelIdeal.S1x512 .f32) (beta g gamma : FVec Ideal Cert.KernelIdeal.S1x1 .f32)
  (s : FVec Ideal Cert.KernelIdeal.S1x3 .f32) (wprev : FVec Ideal Cert.KernelIdeal.S1x16384 .f32)

theorem sim_cr {dotc normc : FVec Ideal SC .f32} {dotr normr : FVec Ideal SR .f32} (hd : ColRow dotc dotr) (hn : ColRow normc normr) :
    ColRow (K.sim k dotc normc) (R.sim k dotr normr) := by
  unfold K.sim R.sim
  exact cr_divf hd (cr_addf (cr_mulf (cr_splat1 _ _ _ _ _) hn) (cr_splat _ _ _))

theorem ez_cr {z : FVec Ideal SC .f32} {z' : FVec Ideal SR .f32} (hz : ColRow z z') : ColRow (K.ez z) (R.ez z') := by
  unfold K.ez R.ez
  exact cr_exp (cr_subf hz (cr_max_spread hz _ _ _ _ _ _ _ _ _))

theorem soft_cr {z : FVec Ideal SC .f32} {z' : FVec Ideal SR .f32} (hz : ColRow z z') : ColRow (K.soft z) (R.soft z') := by
  unfold K.soft R.soft
  exact cr_divf (ez_cr hz) (cr_sum_spread (ez_cr hz) _ _ _ _ _ _ _ _)

theorem gate_cr {wc : FVec Ideal SC .f32} {wc' : FVec Ideal SR .f32} (hw : ColRow wc wc') : ColRow (K.gate g wc wprev) (R.gate g wc' wprev) := by
  unfold K.gate R.gate
  exact cr_addf (cr_mulf (cr_splat11 _ _ _ _) hw) (cr_mulf (cr_scalar_sub _ _ _ _ _ _) (cr_reshape _ _))

theorem wg_cr {dotc normc : FVec Ideal SC .f32} {dotr normr : FVec Ideal SR .f32} (hd : ColRow dotc dotr) (hn : ColRow normc normr) :
    ColRow (K.wg k beta g dotc normc wprev) (R.wg k beta g dotr normr wprev) := by
  unfold K.wg R.wg
  exact gate_cr g wprev (soft_cr (cr_mulf (cr_splat11 _ _ _ _) (sim_cr k hd hn)))

theorem shift_cr {x : FVec Ideal SC .f32} {x' : FVec Ideal SR .f32} (hx : ColRow x x') : ColRow (K.shift s x) (R.shift s x') := by
  unfold K.shift R.shift K.rollF K.rollB R.rollF R.rollB
  exact cr_addf (cr_addf (cr_mulf (cr_splat11 _ _ _ _) (cr_roll_fwd hx _ _ _ _ _ _)) (cr_mulf (cr_splat11 _ _ _ _) hx))
    (cr_mulf (cr_splat11 _ _ _ _) (cr_roll_bwd hx _ _ _ _ _ _))

theorem pw_cr {x : FVec Ideal SC .f32} {x' : FVec Ideal SR .f32} (hx : ColRow x x') : ColRow (K.pw x gamma) (R.pw x' gamma) := by
  unfold K.pw R.pw
  exact cr_powf (cr_addf hx (cr_splat _ _ _)) (cr_splat11 _ _ _ _)

theorem sharp_cr {x : FVec Ideal SC .f32} {x' : FVec Ideal SR .f32} (hx : ColRow x x') : ColRow (K.sharp x gamma) (R.sharp x' gamma) := by
  unfold K.sharp R.sharp
  exact cr_divf (pw_cr gamma hx) (cr_sum_spread (pw_cr gamma hx) _ _ _ _ _ _ _ _)

/-- Over statistics that are one vector each, the new weights' column and row are one vector. -/
theorem w_cr {dotc normc : FVec Ideal SC .f32} {dotr normr : FVec Ideal SR .f32} (hd : ColRow dotc dotr) (hn : ColRow normc normr) :
    ColRow (K.w k beta g s gamma dotc normc wprev) (R.w k beta g s gamma dotr normr wprev) := by
  unfold K.w R.w
  exact sharp_cr gamma (shift_cr s (wg_cr k beta g wprev hd hn))

end Cert.Proof.Addr

end
-- ==== Proof.KFold.lean ====
/-
  The idealized kernel's buffers at the boundaries between its host stretches and its three regions, read back to the
  arguments.

  The first region leaves the projection; the host stretch after it cuts the projection into the key, the three gates,
  the shift weights, the sharpening exponent and the erase and add rows, by the same operations the reference applies to
  its own projection; the second region leaves the two statistics columns; the long stretch after it runs the addressing
  on columns where the reference runs it on rows; the third region writes the memory.
-/
import proofs.«139971_j5454608466465_1_alg».proof.Proof.Gen.KernelIdeal.Frame
import proofs.«139971_j5454608466465_1_alg».proof.Proof.LibRowLayout
import proofs.«139971_j5454608466465_1_alg».proof.Proof.Region0
import proofs.«139971_j5454608466465_1_alg».proof.Proof.Region1
import proofs.«139971_j5454608466465_1_alg».proof.Proof.Region2
import proofs.«139971_j5454608466465_1_alg».proof.Proof.RefLeaves
import proofs.«139971_j5454608466465_1_alg».proof.Proof.Addressing
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KFold

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.StableHlo
open Cert.ReferenceIdeal.ReadP Cert.ColRow

variable (m : (ℓ : Loc nD τ sig) → Buf (Elt Ideal) ℓ) (ρ : Dev nD → PrngReg)

/-! ## Up to the first region -/

theorem W1_arg0 (c : Dev nD) : W1 m ρ c (Proc.devRef .tc main_arg0) = (m ((c.tc : Thread nD τ).loc main_arg0)) := by
  dsimp only [W1, hostOps0]; after_results
theorem W1_arg3 (c : Dev nD) : W1 m ρ c (Proc.devRef .tc main_arg3) = (m ((c.tc : Thread nD τ).loc main_arg3)) := by
  dsimp only [W1, hostOps0]; after_results
theorem W1_v0 (c : Dev nD) : W1 m ρ c (Proc.devRef .tc main_v0)
    = shapeCast S1x1542 (m ((c.tc : Thread nD τ).loc main_arg4)) shapeCasts_S1542_S1x1542 := by
  dsimp only [W1, hostOps0]; after_results; rfl

/-- The first region leaves the reference's projection. -/
theorem W2_v1 (c : Dev nD) : W2 m ρ c (Proc.devRef .tc main_v1) = val_main_v3 (F := Ideal) (m ((c.tc : Thread nD τ).loc main_arg0)) (m ((c.tc : Thread nD τ).loc main_arg3)) (m ((c.tc : Thread nD τ).loc main_arg4)) := by
  refine (W2_arr m ρ c 3).trans ?_
  refine (Cert.KernelIdeal.R0.final (V1 m ρ) c).trans ?_
  show Cert.KernelIdeal.R0.proj (W1 m ρ c (Proc.devRef .tc main_arg0)) (W1 m ρ c (Proc.devRef .tc main_arg3)) (W1 m ρ c (Proc.devRef .tc main_v0)) = _
  rw [W1_arg0, W1_arg3, W1_v0]
  exact Cert.Proof.RefLeaves.proj_eq _ _ _ _

/-! ## The head parameters -/

theorem W7_v2 (c : Dev nD) : W7 m ρ c (Proc.devRef .tc main_v2) = val_main_v4 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v4 (c : Dev nD) : W7 m ρ c (Proc.devRef .tc main_v4) = val_main_v6 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v11 (c : Dev nD) : W7 m ρ c (Proc.devRef .tc main_v11) = val_main_v13 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v23 (c : Dev nD) : W7 m ρ c (Proc.devRef .tc main_v23) = val_main_v25 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v27 (c : Dev nD) : W7 m ρ c (Proc.devRef .tc main_v27) = val_main_v29 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v28 (c : Dev nD) : W7 m ρ c (Proc.devRef .tc main_v28) = val_main_v30 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl
theorem W7_v29 (c : Dev nD) : W7 m ρ c (Proc.devRef .tc main_v29) = val_main_v31 (F := Ideal) (m ((c.tc : Thread nD τ).loc main_arg0)) (m ((c.tc : Thread nD τ).loc main_arg3)) (m ((c.tc : Thread nD τ).loc main_arg4)) := by
  dsimp only [W7, W6, W5, W4, W3, hostOps1, hostOps1_1, hostOps1_2, hostOps1_3, hostOps1_4]
  after_results_simp
  rw [W2_v1]
  rfl

/-- Through the first stretches an argument stays as launched. -/
theorem W7_arg2 (c : Dev nD) : W7 m ρ c (Proc.devRef .tc main_arg2) = (m ((c.tc : Thread nD τ).loc main_arg2)) := by
  dsimp only [W7, W6, W5, W4, W3, hostOps1, hostOps1_1, hostOps1_2, hostOps1_3, hostOps1_4]
  after_results_simp
  rw [W2_of_ne m ρ c main_arg2 (by decide)]
  dsimp only [W1, hostOps0]; after_results
theorem W7_arg1 (c : Dev nD) : W7 m ρ c (Proc.devRef .tc main_arg1) = (m ((c.tc : Thread nD τ).loc main_arg1)) := by
  dsimp only [W7, W6, W5, W4, W3, hostOps1, hostOps1_1, hostOps1_2, hostOps1_3, hostOps1_4]
  after_results_simp
  rw [W2_of_ne m ρ c main_arg1 (by decide)]
  dsimp only [W1, hostOps0]; after_results

/-! ## The second region -/

theorem W8_v30_0 (c : Dev nD) : W8 m ρ c (Proc.devRef .tc main_v30_0)
    = Cert.KernelIdeal.R1.dotCol (m ((c.tc : Thread nD τ).loc main_arg2)) (val_main_v4 (F := Ideal) (m ((c.tc : Thread nD τ).loc main_arg0)) (m ((c.tc : Thread nD τ).loc main_arg3)) (m ((c.tc : Thread nD τ).loc main_arg4))) := by
  refine (W8_arr m ρ c 2).trans ?_
  refine (Cert.KernelIdeal.R1.final2 (V7 m ρ) c).trans ?_
  show Cert.KernelIdeal.R1.dotCol (W7 m ρ c (Proc.devRef .tc main_arg2)) (W7 m ρ c (Proc.devRef .tc main_v2)) = _
  rw [W7_arg2, W7_v2]
theorem W8_v30_1 (c : Dev nD) : W8 m ρ c (Proc.devRef .tc main_v30_1) = Cert.KernelIdeal.R1.normCol (m ((c.tc : Thread nD τ).loc main_arg2)) := by
  refine (W8_arr m ρ c 3).trans ?_
  refine (Cert.KernelIdeal.R1.final3 (V7 m ρ) c).trans ?_
  show Cert.KernelIdeal.R1.normCol (W7 m ρ c (Proc.devRef .tc main_arg2)) = _
  rw [W7_arg2]
/-- The region's two input arrays leave it as they entered. -/
theorem W8_v2 (c : Dev nD) : W8 m ρ c (Proc.devRef .tc main_v2) = val_main_v4 (F := Ideal) (m ((c.tc : Thread nD τ).loc main_arg0)) (m ((c.tc : Thread nD τ).loc main_arg3)) (m ((c.tc : Thread nD τ).loc main_arg4)) := by
  refine (W8_arr m ρ c 1).trans ?_
  refine ((dat1 (V7 m ρ) c).arrAt_in 1 rfl cfg1.N).trans ?_
  exact (A_eq1 (V7 m ρ) c 1).trans (W7_v2 m ρ c)
theorem W8_arg2 (c : Dev nD) : W8 m ρ c (Proc.devRef .tc main_arg2) = (m ((c.tc : Thread nD τ).loc main_arg2)) := by
  refine (W8_arr m ρ c 0).trans ?_
  refine ((dat1 (V7 m ρ) c).arrAt_in 0 rfl cfg1.N).trans ?_
  exact (A_eq1 (V7 m ρ) c 0).trans (W7_arg2 m ρ c)
theorem W8_v4 (c : Dev nD) : W8 m ρ c (Proc.devRef .tc main_v4) = val_main_v6 (F := Ideal) (m ((c.tc : Thread nD τ).loc main_arg0)) (m ((c.tc : Thread nD τ).loc main_arg3)) (m ((c.tc : Thread nD τ).loc main_arg4)) :=
  (W8_of_ne m ρ c main_v4 (by decide)).trans (W7_v4 m ρ c)
theorem W8_v11 (c : Dev nD) : W8 m ρ c (Proc.devRef .tc main_v11) = val_main_v13 (F := Ideal) (m ((c.tc : Thread nD τ).loc main_arg0)) (m ((c.tc : Thread nD τ).loc main_arg3)) (m ((c.tc : Thread nD τ).loc main_arg4)) :=
  (W8_of_ne m ρ c main_v11 (by decide)).trans (W7_v11 m ρ c)
theorem W8_v23 (c : Dev nD) : W8 m ρ c (Proc.devRef .tc main_v23) = val_main_v25 (F := Ideal) (m ((c.tc : Thread nD τ).loc main_arg0)) (m ((c.tc : Thread nD τ).loc main_arg3)) (m ((c.tc : Thread nD τ).loc main_arg4)) :=
  (W8_of_ne m ρ c main_v23 (by decide)).trans (W7_v23 m ρ c)
theorem W8_v27 (c : Dev nD) : W8 m ρ c (Proc.devRef .tc main_v27) = val_main_v29 (F := Ideal) (m ((c.tc : Thread nD τ).loc main_arg0)) (m ((c.tc : Thread nD τ).loc main_arg3)) (m ((c.tc : Thread nD τ).loc main_arg4)) :=
  (W8_of_ne m ρ c main_v27 (by decide)).trans (W7_v27 m ρ c)
theorem W8_v28 (c : Dev nD) : W8 m ρ c (Proc.devRef .tc main_v28) = val_main_v30 (F := Ideal) (m ((c.tc : Thread nD τ).loc main_arg0)) (m ((c.tc : Thread nD τ).loc main_arg3)) (m ((c.tc : Thread nD τ).loc main_arg4)) :=
  (W8_of_ne m ρ c main_v28 (by decide)).trans (W7_v28 m ρ c)
theorem W8_v29 (c : Dev nD) : W8 m ρ c (Proc.devRef .tc main_v29) = val_main_v31 (F := Ideal) (m ((c.tc : Thread nD τ).loc main_arg0)) (m ((c.tc : Thread nD τ).loc main_arg3)) (m ((c.tc : Thread nD τ).loc main_arg4)) :=
  (W8_of_ne m ρ c main_v29 (by decide)).trans (W7_v29 m ρ c)
theorem W8_arg1 (c : Dev nD) : W8 m ρ c (Proc.devRef .tc main_arg1) = (m ((c.tc : Thread nD τ).loc main_arg1)) :=
  (W8_of_ne m ρ c main_arg1 (by decide)).trans (W7_arg1 m ρ c)

/-! ## The addressing stretch and the third region -/

/-- A buffer no operation of a stretch writes keeps its contents through the stretch. -/
macro "host_carry " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

theorem carry_v59_10_12 (c : Dev nD) : W12 m ρ c (Proc.devRef .tc main_v59) = W10 m ρ c (Proc.devRef .tc main_v59) :=
  (show W12 m ρ c (Proc.devRef .tc main_v59) = W11 m ρ c (Proc.devRef .tc main_v59) by host_carry hostOps2_3).trans (show W11 m ρ c (Proc.devRef .tc main_v59) = W10 m ρ c (Proc.devRef .tc main_v59) by host_carry hostOps2_2)
theorem carry_v61_10_11 (c : Dev nD) : W11 m ρ c (Proc.devRef .tc main_v61) = W10 m ρ c (Proc.devRef .tc main_v61) :=
  (show W11 m ρ c (Proc.devRef .tc main_v61) = W10 m ρ c (Proc.devRef .tc main_v61) by host_carry hostOps2_2)
theorem carry_v63_10_11 (c : Dev nD) : W11 m ρ c (Proc.devRef .tc main_v63) = W10 m ρ c (Proc.devRef .tc main_v63) :=
  (show W11 m ρ c (Proc.devRef .tc main_v63) = W10 m ρ c (Proc.devRef .tc main_v63) by host_carry hostOps2_2)
theorem carry_v65_10_13 (c : Dev nD) : W13 m ρ c (Proc.devRef .tc main_v65) = W10 m ρ c (Proc.devRef .tc main_v65) :=
  (show W13 m ρ c (Proc.devRef .tc main_v65) = W12 m ρ c (Proc.devRef .tc main_v65) by host_carry hostOps2_4).trans ((show W12 m ρ c (Proc.devRef .tc main_v65) = W11 m ρ c (Proc.devRef .tc main_v65) by host_carry hostOps2_3).trans (show W11 m ρ c (Proc.devRef .tc main_v65) = W10 m ρ c (Proc.devRef .tc main_v65) by host_carry hostOps2_2))
theorem carry_v71_12_13 (c : Dev nD) : W13 m ρ c (Proc.devRef .tc main_v71) = W12 m ρ c (Proc.devRef .tc main_v71) :=
  (show W13 m ρ c (Proc.devRef .tc main_v71) = W12 m ρ c (Proc.devRef .tc main_v71) by host_carry hostOps2_4)
theorem carry_v27_8_13 (c : Dev nD) : W13 m ρ c (Proc.devRef .tc main_v27) = W8 m ρ c (Proc.devRef .tc main_v27) :=
  (show W13 m ρ c (Proc.devRef .tc main_v27) = W12 m ρ c (Proc.devRef .tc main_v27) by host_carry hostOps2_4).trans ((show W12 m ρ c (Proc.devRef .tc main_v27) = W11 m ρ c (Proc.devRef .tc main_v27) by host_carry hostOps2_3).trans ((show W11 m ρ c (Proc.devRef .tc main_v27) = W10 m ρ c (Proc.devRef .tc main_v27) by host_carry hostOps2_2).trans ((show W10 m ρ c (Proc.devRef .tc main_v27) = W9 m ρ c (Proc.devRef .tc main_v27) by host_carry hostOps2_1).trans (show W9 m ρ c (Proc.devRef .tc main_v27) = W8 m ρ c (Proc.devRef .tc main_v27) by host_carry hostOps2))))
theorem carry_v28_8_14 (c : Dev nD) : W14 m ρ c (Proc.devRef .tc main_v28) = W8 m ρ c (Proc.devRef .tc main_v28) :=
  (show W14 m ρ c (Proc.devRef .tc main_v28) = W13 m ρ c (Proc.devRef .tc main_v28) by host_carry hostOps2_5).trans ((show W13 m ρ c (Proc.devRef .tc main_v28) = W12 m ρ c (Proc.devRef .tc main_v28) by host_carry hostOps2_4).trans ((show W12 m ρ c (Proc.devRef .tc main_v28) = W11 m ρ c (Proc.devRef .tc main_v28) by host_carry hostOps2_3).trans ((show W11 m ρ c (Proc.devRef .tc main_v28) = W10 m ρ c (Proc.devRef .tc main_v28) by host_carry hostOps2_2).trans ((show W10 m ρ c (Proc.devRef .tc main_v28) = W9 m ρ c (Proc.devRef .tc main_v28) by host_carry hostOps2_1).trans (show W9 m ρ c (Proc.devRef .tc main_v28) = W8 m ρ c (Proc.devRef .tc main_v28) by host_carry hostOps2)))))
theorem carry_v29_8_14 (c : Dev nD) : W14 m ρ c (Proc.devRef .tc main_v29) = W8 m ρ c (Proc.devRef .tc main_v29) :=
  (show W14 m ρ c (Proc.devRef .tc main_v29) = W13 m ρ c (Proc.devRef .tc main_v29) by host_carry hostOps2_5).trans ((show W13 m ρ c (Proc.devRef .tc main_v29) = W12 m ρ c (Proc.devRef .tc main_v29) by host_carry hostOps2_4).trans ((show W12 m ρ c (Proc.devRef .tc main_v29) = W11 m ρ c (Proc.devRef .tc main_v29) by host_carry hostOps2_3).trans ((show W11 m ρ c (Proc.devRef .tc main_v29) = W10 m ρ c (Proc.devRef .tc main_v29) by host_carry hostOps2_2).trans ((show W10 m ρ c (Proc.devRef .tc main_v29) = W9 m ρ c (Proc.devRef .tc main_v29) by host_carry hostOps2_1).trans (show W9 m ρ c (Proc.devRef .tc main_v29) = W8 m ρ c (Proc.devRef .tc main_v29) by host_carry hostOps2)))))
theorem carry_arg2_8_14 (c : Dev nD) : W14 m ρ c (Proc.devRef .tc main_arg2) = W8 m ρ c (Proc.devRef .tc main_arg2) :=
  (show W14 m ρ c (Proc.devRef .tc main_arg2) = W13 m ρ c (Proc.devRef .tc main_arg2) by host_carry hostOps2_5).trans ((show W13 m ρ c (Proc.devRef .tc main_arg2) = W12 m ρ c (Proc.devRef .tc main_arg2) by host_carry hostOps2_4).trans ((show W12 m ρ c (Proc.devRef .tc main_arg2) = W11 m ρ c (Proc.devRef .tc main_arg2) by host_carry hostOps2_3).trans ((show W11 m ρ c (Proc.devRef .tc main_arg2) = W10 m ρ c (Proc.devRef .tc main_arg2) by host_carry hostOps2_2).trans ((show W10 m ρ c (Proc.devRef .tc main_arg2) = W9 m ρ c (Proc.devRef .tc main_arg2) by host_carry hostOps2_1).trans (show W9 m ρ c (Proc.devRef .tc main_arg2) = W8 m ρ c (Proc.devRef .tc main_arg2) by host_carry hostOps2)))))
theorem carry_v59_10_11 (c : Dev nD) : W11 m ρ c (Proc.devRef .tc main_v59) = W10 m ρ c (Proc.devRef .tc main_v59) := by
  host_carry hostOps2_2

set_option maxHeartbeats 8000000 in
/-- After the key's norm and the long stretch: the gated weights, as a column. -/
theorem W10_v59 (c : Dev nD) : W10 m ρ c (Proc.devRef .tc main_v59) = (Cert.Proof.Addr.K.wg (val_main_v4 (F := Ideal) (m ((c.tc : Thread nD τ).loc main_arg0)) (m ((c.tc : Thread nD τ).loc main_arg3)) (m ((c.tc : Thread nD τ).loc main_arg4))) (val_main_v6 (F := Ideal) (m ((c.tc : Thread nD τ).loc main_arg0)) (m ((c.tc : Thread nD τ).loc main_arg3)) (m ((c.tc : Thread nD τ).loc main_arg4))) (val_main_v13 (F := Ideal) (m ((c.tc : Thread nD τ).loc main_arg0)) (m ((c.tc : Thread nD τ).loc main_arg3)) (m ((c.tc : Thread nD τ).loc main_arg4))) (Cert.KernelIdeal.R1.dotCol (m ((c.tc : Thread nD τ).loc main_arg2)) (val_main_v4 (F := Ideal) (m ((c.tc : Thread nD τ).loc main_arg0)) (m ((c.tc : Thread nD τ).loc main_arg3)) (m ((c.tc : Thread nD τ).loc main_arg4)))) (Cert.KernelIdeal.R1.normCol (m ((c.tc : Thread nD τ).loc main_arg2))) (m ((c.tc : Thread nD τ).loc main_arg1))) := by
  dsimp only [W10, W9, hostOps2, hostOps2_1]
  after_results_simp
  simp only [W8_v2 m ρ c, W8_v30_0 m ρ c, W8_v30_1 m ρ c, W8_v4 m ρ c, W8_v11 m ρ c, W8_arg1 m ρ c]
  rfl
set_option maxHeartbeats 4000000 in
theorem W10_v61 (c : Dev nD) : W10 m ρ c (Proc.devRef .tc main_v61) = (shapeCast S_ (extractStridedSlice S1x1 ![0, 0] (val_main_v25 (F := Ideal) (m ((c.tc : Thread nD τ).loc main_arg0)) (m ((c.tc : Thread nD τ).loc main_arg3)) (m ((c.tc : Thread nD τ).loc main_arg4))) slices_S1x3_S1x1_0_0) shapeCasts_S1x1_S_) := by
  dsimp only [W10, W9, hostOps2, hostOps2_1]
  after_results_simp
  simp only [W8_v23 m ρ c]
  rfl
set_option maxHeartbeats 4000000 in
theorem W10_v63 (c : Dev nD) : W10 m ρ c (Proc.devRef .tc main_v63) = (shapeCast S_ (extractStridedSlice S1x1 ![0, 1] (val_main_v25 (F := Ideal) (m ((c.tc : Thread nD τ).loc main_arg0)) (m ((c.tc : Thread nD τ).loc main_arg3)) (m ((c.tc : Thread nD τ).loc main_arg4))) slices_S1x3_S1x1_0_1) shapeCasts_S1x1_S_) := by
  dsimp only [W10, W9, hostOps2, hostOps2_1]
  after_results_simp
  simp only [W8_v23 m ρ c]
  rfl
set_option maxHeartbeats 4000000 in
theorem W10_v65 (c : Dev nD) : W10 m ρ c (Proc.devRef .tc main_v65) = (shapeCast S_ (extractStridedSlice S1x1 ![0, 2] (val_main_v25 (F := Ideal) (m ((c.tc : Thread nD τ).loc main_arg0)) (m ((c.tc : Thread nD τ).loc main_arg3)) (m ((c.tc : Thread nD τ).loc main_arg4))) slices_S1x3_S1x1_0_2) shapeCasts_S1x1_S_) := by
  dsimp only [W10, W9, hostOps2, hostOps2_1]
  after_results_simp
  simp only [W8_v23 m ρ c]
  rfl

theorem W11_v66 (c : Dev nD) : W11 m ρ c (Proc.devRef .tc main_v66) = Cert.Proof.Addr.K.rollF (W10 m ρ c (Proc.devRef .tc main_v59)) := by
  dsimp only [W11, hostOps2_2]
  generalize W10 m ρ c = V
  after_results
  rfl
theorem W12_v71 (c : Dev nD) : W12 m ρ c (Proc.devRef .tc main_v71)
    = (addf (mulf (broadcastInDim S16384x1 ![] bcast_S_S16384x1 ((W11 m ρ c (Proc.devRef .tc main_v61)) : FVec Ideal S_ .f32)) ((W11 m ρ c (Proc.devRef .tc main_v66)) : FVec Ideal S16384x1 .f32))
        (mulf (broadcastInDim S16384x1 ![] bcast_S_S16384x1 ((W11 m ρ c (Proc.devRef .tc main_v63)) : FVec Ideal S_ .f32)) ((W11 m ρ c (Proc.devRef .tc main_v59)) : FVec Ideal S16384x1 .f32)) : FVec Ideal S16384x1 .f32) := by
  dsimp only [W12, hostOps2_3]
  generalize W11 m ρ c = V
  after_results
theorem W13_v72 (c : Dev nD) : W13 m ρ c (Proc.devRef .tc main_v72) = Cert.Proof.Addr.K.rollB (W12 m ρ c (Proc.devRef .tc main_v59)) := by
  dsimp only [W13, hostOps2_4]
  generalize W12 m ρ c = V
  after_results
  rfl
theorem W14_v84_step (c : Dev nD) : W14 m ρ c (Proc.devRef .tc main_v84)
    = Cert.Proof.Addr.K.sharp (addf (W13 m ρ c (Proc.devRef .tc main_v71)) (mulf (broadcastInDim S16384x1 ![] bcast_S_S16384x1 (W13 m ρ c (Proc.devRef .tc main_v65))) (W13 m ρ c (Proc.devRef .tc main_v72)))) (W13 m ρ c (Proc.devRef .tc main_v27)) := by
  dsimp only [W14, hostOps2_5]
  generalize W13 m ρ c = V
  after_results
  rfl

/-- The weight column the third region reads is the addressing on columns, of the head parameters and the statistics. -/
theorem W14_v84 (c : Dev nD) : W14 m ρ c (Proc.devRef .tc main_v84)
    = Cert.Proof.Addr.K.w (val_main_v4 (F := Ideal) (m ((c.tc : Thread nD τ).loc main_arg0)) (m ((c.tc : Thread nD τ).loc main_arg3)) (m ((c.tc : Thread nD τ).loc main_arg4))) (val_main_v6 (F := Ideal) (m ((c.tc : Thread nD τ).loc main_arg0)) (m ((c.tc : Thread nD τ).loc main_arg3)) (m ((c.tc : Thread nD τ).loc main_arg4))) (val_main_v13 (F := Ideal) (m ((c.tc : Thread nD τ).loc main_arg0)) (m ((c.tc : Thread nD τ).loc main_arg3)) (m ((c.tc : Thread nD τ).loc main_arg4))) (val_main_v25 (F := Ideal) (m ((c.tc : Thread nD τ).loc main_arg0)) (m ((c.tc : Thread nD τ).loc main_arg3)) (m ((c.tc : Thread nD τ).loc main_arg4))) (val_main_v29 (F := Ideal) (m ((c.tc : Thread nD τ).loc main_arg0)) (m ((c.tc : Thread nD τ).loc main_arg3)) (m ((c.tc : Thread nD τ).loc main_arg4))) (Cert.KernelIdeal.R1.dotCol (m ((c.tc : Thread nD τ).loc main_arg2)) (val_main_v4 (F := Ideal) (m ((c.tc : Thread nD τ).loc main_arg0)) (m ((c.tc : Thread nD τ).loc main_arg3)) (m ((c.tc : Thread nD τ).loc main_arg4)))) (Cert.KernelIdeal.R1.normCol (m ((c.tc : Thread nD τ).loc main_arg2))) (m ((c.tc : Thread nD τ).loc main_arg1)) := by
  rw [W14_v84_step, carry_v71_12_13, W12_v71, carry_v61_10_11, carry_v63_10_11, W11_v66, carry_v59_10_11, carry_v65_10_13,
    W13_v72, carry_v59_10_12, carry_v27_8_13, W10_v59, W10_v61, W10_v63, W10_v65, W8_v27]
  rfl
theorem W14_v28 (c : Dev nD) : W14 m ρ c (Proc.devRef .tc main_v28) = val_main_v30 (F := Ideal) (m ((c.tc : Thread nD τ).loc main_arg0)) (m ((c.tc : Thread nD τ).loc main_arg3)) (m ((c.tc : Thread nD τ).loc main_arg4)) :=
  (carry_v28_8_14 m ρ c).trans (W8_v28 m ρ c)
theorem W14_v29 (c : Dev nD) : W14 m ρ c (Proc.devRef .tc main_v29) = val_main_v31 (F := Ideal) (m ((c.tc : Thread nD τ).loc main_arg0)) (m ((c.tc : Thread nD τ).loc main_arg3)) (m ((c.tc : Thread nD τ).loc main_arg4)) :=
  (carry_v29_8_14 m ρ c).trans (W8_v29 m ρ c)
theorem W14_arg2 (c : Dev nD) : W14 m ρ c (Proc.devRef .tc main_arg2) = (m ((c.tc : Thread nD τ).loc main_arg2)) :=
  (carry_arg2_8_14 m ρ c).trans (W8_arg2 m ρ c)

/-- The third region leaves the written memory. -/
theorem W15_v85 (c : Dev nD) : W15 m ρ c (Proc.devRef .tc main_v85)
    = Cert.KernelIdeal.R2.written (m ((c.tc : Thread nD τ).loc main_arg2)) (W14 m ρ c (Proc.devRef .tc main_v84))
        (val_main_v30 (F := Ideal) (m ((c.tc : Thread nD τ).loc main_arg0)) (m ((c.tc : Thread nD τ).loc main_arg3)) (m ((c.tc : Thread nD τ).loc main_arg4))) (val_main_v31 (F := Ideal) (m ((c.tc : Thread nD τ).loc main_arg0)) (m ((c.tc : Thread nD τ).loc main_arg3)) (m ((c.tc : Thread nD τ).loc main_arg4))) := by
  refine (W15_arr m ρ c 4).trans ?_
  refine (Cert.KernelIdeal.R2.final (V14 m ρ) c).trans ?_
  show Cert.KernelIdeal.R2.written (W14 m ρ c (Proc.devRef .tc main_arg2)) (W14 m ρ c (Proc.devRef .tc main_v84))
    (W14 m ρ c (Proc.devRef .tc main_v28)) (W14 m ρ c (Proc.devRef .tc main_v29)) = _
  rw [W14_arg2, W14_v28, W14_v29]

/-! ## The two results -/

theorem W16_v85 (c : Dev nD) : W16 m ρ c (Proc.devRef .tc main_v85) = W15 m ρ c (Proc.devRef .tc main_v85) := by
  dsimp only [W16, hostOps3]
  after_results

theorem W16_v86 (c : Dev nD) : W16 m ρ c (Proc.devRef .tc main_v86)
    = shapeCast S1x16384 (W14 m ρ c (Proc.devRef .tc main_v84)) shapeCasts_S16384x1_S1x16384 := by
  have h15 : W15 m ρ c (Proc.devRef .tc main_v84) = W14 m ρ c (Proc.devRef .tc main_v84) := by
    refine (W15_arr m ρ c 1).trans ?_
    refine ((dat2 (V14 m ρ) c).arrAt_in 1 rfl cfg2.N).trans ?_
    exact A_eq2 (V14 m ρ) c 1
  rw [← h15]
  dsimp only [W16, hostOps3]
  after_results
  rfl

/-- The first result: the reference's weight row. -/
theorem result0 (c : Dev nD) : W16 m ρ c (Proc.devRef .tc main_v86) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W16_v86, W14_v84]
  refine reshape_eq ?_ _
  exact Cert.Proof.Addr.w_cr _ _ _ _ _ _ (Cert.Proof.RefLeaves.dot_colrow _ _ _ _) (Cert.Proof.RefLeaves.norm_colrow _)

/-- The second result: the reference's written memory. -/
theorem result1 (c : Dev nD) : W16 m ρ c (Proc.devRef .tc main_v85) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W16_v85, W15_v85, W14_v84]
  refine Cert.Proof.RefLeaves.written_eq _ _ _ _ _ _ ?_
  exact Cert.Proof.Addr.w_cr _ _ _ _ _ _ (Cert.Proof.RefLeaves.dot_colrow _ _ _ _) (Cert.Proof.RefLeaves.norm_colrow _)

end Cert.Proof.KFold

end
-- ==== Proof.Assemble.lean ====
/-
  The two idealized programs end with equal results.

  The idealized kernel's run ends with its two result buffers at the reference's own stages of the kernel's arguments (the
  weight row and the written memory); the reference's run ends at the same stages of its arguments; and the two programs'
  arguments agree.
-/
import proofs.«139971_j5454608466465_1_alg».proof.Defs
import proofs.«139971_j5454608466465_1_alg».proof.Proof.Gen.KernelIdeal
import proofs.«139971_j5454608466465_1_alg».proof.Proof.Gen.ReferenceIdeal
import proofs.«139971_j5454608466465_1_alg».proof.Proof.Gen.Pre_finite_inputs
import proofs.«139971_j5454608466465_1_alg».proof.Proof.KRun
import proofs.«139971_j5454608466465_1_alg».proof.Proof.KFold
import proofs.«139971_j5454608466465_1_alg».proof.Proof.RefRead

set_option maxRecDepth 16384

noncomputable section

namespace Cert.Proof.Assemble

open Idealize.ShloMosaic Idealize.ShloMosaic.TcCoe Idealize.SL.Sem
open Cert.ReferenceIdeal.ReadP

/-- What the reference's run is asked for: each result buffer at its stage of the arguments, the arguments unchanged. -/
def RefRuns : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v83) = val_main_v83 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_v91) = val_main_v91 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg1) = (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg2) = (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg3) = (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg4) = (m' ((c.tc : Thread Cert.ReferenceIdeal.nD Cert.ReferenceIdeal.τ).loc Cert.ReferenceIdeal.main_arg4)))

theorem frame_of (h : RefRuns) : Cert.frame_ReferenceIdeal := fun m' ρ' _ =>
  (θ_run Cert.ReferenceIdeal.defs _ _).mono (fun _ hr c => (hr c).2.2) (h m' ρ')

theorem algebraic_of (h : RefRuns) : Cert.algebraic_KernelIdeal_ReferenceIdeal := by
  intro m ρ m' ρ' _ hagree
  refine ⟨fun c => val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r hr c => ?_) (Cert.KernelIdeal.KRun.run (F := Ideal) m ρ)
    obtain ⟨h0, h1, ha⟩ := hr c
    exact ⟨h0.trans (Cert.Proof.KFold.result0 m ρ c), h1.trans (Cert.Proof.KFold.result1 m ρ c), ha⟩
  · refine (θ_run Cert.ReferenceIdeal.defs _ _).mono (fun r hr c => ?_) (h m' ρ')
    obtain ⟨h0, h1, ha⟩ := hr c
    obtain ⟨e0, e1, e2, e3, e4⟩ := hagree c
    refine ⟨h0.trans ?_, h1.trans ?_, ha⟩
    · rw [e0, e1, e2, e3, e4]
    · rw [e0, e1, e2, e3, e4]

end Cert.Proof.Assemble

end
-- ==== Proof.RefChunks.lean ====
/-
  The reference's straight line of 142 host operations, in seven parts.

  The contents after a line of operations are a fold over it, so the fold of a concatenation is the fold of the second
  part from the fold of the first (the library's `after_append`), and the line can be evaluated part by part. The cuts: after the head parameters (the key,
  the gates, the shift weights, the exponent, the erase and add rows); after the gated weights; around each of the two
  rotations by one place; after the sharpened weights.
-/
import proofs.«139971_j5454608466465_1_alg».proof.Proof.RefOps
import Idealize.ShloMosaic.Lib.StableHlo.Run

set_option maxRecDepth 65536

noncomputable section

namespace Cert.Proof.RefChunks

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 4000000 in
/-- The line is its seven parts in order. -/
theorem ops_split : (ops (F := F)) = opsA ++ (opsB ++ (opsC1 ++ (opsC2 ++ (opsC3 ++ (opsC4 ++ opsD))))) := rfl

end Cert.Proof.RefChunks

end
-- ==== Proof.RefA.lean ====
/-
  The first part of the reference's line, from the launch contents: the head parameters are the stages the reference's
  operations define, and the two arguments read later are untouched.
-/
import proofs.«139971_j5454608466465_1_alg».proof.Proof.RefOps
import proofs.«139971_j5454608466465_1_alg».proof.Proof.RefRead
import Idealize.ShloMosaic.Lib.StableHlo.Run

set_option maxRecDepth 65536

noncomputable section

namespace Cert.Proof.RefA

open Cert.ReferenceIdeal Cert.ReferenceIdeal.Gen Cert.ReferenceIdeal.ValueP
open Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

set_option maxHeartbeats 4000000 in
theorem A_v4 : after (opsA (F := Ideal)) (launchContents m c) (Proc.devRef .tc main_v4)
    = val_main_v4 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v6 : after (opsA (F := Ideal)) (launchContents m c) (Proc.devRef .tc main_v6)
    = val_main_v6 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v13 : after (opsA (F := Ideal)) (launchContents m c) (Proc.devRef .tc main_v13)
    = val_main_v13 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v25 : after (opsA (F := Ideal)) (launchContents m c) (Proc.devRef .tc main_v25)
    = val_main_v25 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v29 : after (opsA (F := Ideal)) (launchContents m c) (Proc.devRef .tc main_v29)
    = val_main_v29 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v30 : after (opsA (F := Ideal)) (launchContents m c) (Proc.devRef .tc main_v30)
    = val_main_v30 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_v31 : after (opsA (F := Ideal)) (launchContents m c) (Proc.devRef .tc main_v31)
    = val_main_v31 (F := Ideal) (m ((c.tc : Thread nD τ).loc main_arg0)) (m ((c.tc : Thread nD τ).loc main_arg3)) (m ((c.tc : Thread nD τ).loc main_arg4)) := by
  dsimp only [opsA]
  after_results_simp
  rfl
set_option maxHeartbeats 4000000 in
theorem A_arg1 : after (opsA (F := Ideal)) (launchContents m c) (Proc.devRef .tc main_arg1) = m ((c.tc : Thread nD τ).loc main_arg1) := by
  dsimp only [opsA]
  after_results_simp
set_option maxHeartbeats 4000000 in
theorem A_arg2 : after (opsA (F := Ideal)) (launchContents m c) (Proc.devRef .tc main_arg2) = m ((c.tc : Thread nD τ).loc main_arg2) := by
  dsimp only [opsA]
  after_results_simp

end Cert.Proof.RefA

end
-- ==== Proof.RefB.lean ====
/-
  The second part of the reference's line: from the key, the key strength, the gate, the previous weights and the memory,
  the gated weights; the parameters read later pass through.
-/
import proofs.«139971_j5454608466465_1_alg».proof.Proof.RefOps
import proofs.«139971_j5454608466465_1_alg».proof.Proof.RefRead
import Idealize.ShloMosaic.Lib.StableHlo.Run

set_option maxRecDepth 65536

noncomputable section

namespace Cert.Proof.RefB

open Cert.ReferenceIdeal Cert.ReferenceIdeal.Gen Cert.ReferenceIdeal.ValueP
open Idealize.ShloMosaic Idealize.ShloMosaic.TcCoe Idealize.SL.Sem Idealize.ShloMosaic.StableHlo
open Cert.ReferenceIdeal.ReadP

set_option maxHeartbeats 16000000 in
theorem B_v62 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv4 : V (Proc.devRef .tc main_v4) = val_main_v4 (F := Ideal) x0 x3 x4) (hv6 : V (Proc.devRef .tc main_v6) = val_main_v6 (F := Ideal) x0 x3 x4) (hv13 : V (Proc.devRef .tc main_v13) = val_main_v13 (F := Ideal) x0 x3 x4) (harg1 : V (Proc.devRef .tc main_arg1) = x1) (harg2 : V (Proc.devRef .tc main_arg2) = x2) :
    after (opsB (F := Ideal)) V (Proc.devRef .tc main_v62) = val_main_v62 (F := Ideal) x0 x1 x2 x3 x4 := by
  dsimp only [opsB]
  after_results_simp
  simp only [hv4, hv6, hv13, harg1, harg2]
  rfl
set_option maxHeartbeats 4000000 in
theorem B_keeps_v25 (V : Valuation τ sig (Elt Ideal)) : after (opsB (F := Ideal)) V (Proc.devRef .tc main_v25) = V (Proc.devRef .tc main_v25) := by
  dsimp only [opsB]
  after_results_simp
set_option maxHeartbeats 4000000 in
theorem B_keeps_v29 (V : Valuation τ sig (Elt Ideal)) : after (opsB (F := Ideal)) V (Proc.devRef .tc main_v29) = V (Proc.devRef .tc main_v29) := by
  dsimp only [opsB]
  after_results_simp
set_option maxHeartbeats 4000000 in
theorem B_keeps_v30 (V : Valuation τ sig (Elt Ideal)) : after (opsB (F := Ideal)) V (Proc.devRef .tc main_v30) = V (Proc.devRef .tc main_v30) := by
  dsimp only [opsB]
  after_results_simp
set_option maxHeartbeats 4000000 in
theorem B_keeps_v31 (V : Valuation τ sig (Elt Ideal)) : after (opsB (F := Ideal)) V (Proc.devRef .tc main_v31) = V (Proc.devRef .tc main_v31) := by
  dsimp only [opsB]
  after_results_simp
set_option maxHeartbeats 4000000 in
theorem B_keeps_arg2 (V : Valuation τ sig (Elt Ideal)) : after (opsB (F := Ideal)) V (Proc.devRef .tc main_arg2) = V (Proc.devRef .tc main_arg2) := by
  dsimp only [opsB]
  after_results_simp

end Cert.Proof.RefB

end
-- ==== Proof.RefC.lean ====
/-
  The third part of the reference's line, in four steps: the rotation one place forward, the first two taps of the shift,
  the rotation one place back, and the third tap with the sharpening and its normalisation.
-/
import proofs.«139971_j5454608466465_1_alg».proof.Proof.RefOps
import proofs.«139971_j5454608466465_1_alg».proof.Proof.RefRead
import proofs.«139971_j5454608466465_1_alg».proof.Proof.Addressing
import Idealize.ShloMosaic.Lib.StableHlo.Run

set_option maxRecDepth 65536

noncomputable section

namespace Cert.Proof.RefC

open Cert.ReferenceIdeal Cert.ReferenceIdeal.Gen Cert.ReferenceIdeal.ValueP
open Idealize.ShloMosaic Idealize.ShloMosaic.TcCoe Idealize.SL.Sem Idealize.ShloMosaic.StableHlo
open Cert.ReferenceIdeal.ReadP

set_option maxHeartbeats 4000000 in
theorem C1_v64_of (V : Valuation τ sig (Elt Ideal)) :
    after (opsC1 (F := Ideal)) V (Proc.devRef .tc main_v64) = Cert.Proof.Addr.R.rollF (V (Proc.devRef .tc main_v62)) := by
  dsimp only [opsC1]
  after_results_simp
  rfl
theorem C1_v64 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv62 : V (Proc.devRef .tc main_v62) = val_main_v62 (F := Ideal) x0 x1 x2 x3 x4) :
    after (opsC1 (F := Ideal)) V (Proc.devRef .tc main_v64) = val_main_v64 (F := Ideal) x0 x1 x2 x3 x4 := by
  rw [C1_v64_of, hv62]
  rfl
set_option maxHeartbeats 4000000 in
theorem C1_v63 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv25 : V (Proc.devRef .tc main_v25) = val_main_v25 (F := Ideal) x0 x3 x4) :
    after (opsC1 (F := Ideal)) V (Proc.devRef .tc main_v63) = val_main_v63 (F := Ideal) x0 x3 x4 := by
  dsimp only [opsC1]
  after_results_simp
  simp only [hv25]
  rfl
set_option maxHeartbeats 4000000 in
theorem C1_keeps_v62 (V : Valuation τ sig (Elt Ideal)) : after (opsC1 (F := Ideal)) V (Proc.devRef .tc main_v62) = V (Proc.devRef .tc main_v62) := by
  dsimp only [opsC1]
  after_results_simp
set_option maxHeartbeats 4000000 in
theorem C1_keeps_v25 (V : Valuation τ sig (Elt Ideal)) : after (opsC1 (F := Ideal)) V (Proc.devRef .tc main_v25) = V (Proc.devRef .tc main_v25) := by
  dsimp only [opsC1]
  after_results_simp
set_option maxHeartbeats 4000000 in
theorem C1_keeps_v29 (V : Valuation τ sig (Elt Ideal)) : after (opsC1 (F := Ideal)) V (Proc.devRef .tc main_v29) = V (Proc.devRef .tc main_v29) := by
  dsimp only [opsC1]
  after_results_simp
set_option maxHeartbeats 4000000 in
theorem C1_keeps_v30 (V : Valuation τ sig (Elt Ideal)) : after (opsC1 (F := Ideal)) V (Proc.devRef .tc main_v30) = V (Proc.devRef .tc main_v30) := by
  dsimp only [opsC1]
  after_results_simp
set_option maxHeartbeats 4000000 in
theorem C1_keeps_v31 (V : Valuation τ sig (Elt Ideal)) : after (opsC1 (F := Ideal)) V (Proc.devRef .tc main_v31) = V (Proc.devRef .tc main_v31) := by
  dsimp only [opsC1]
  after_results_simp
set_option maxHeartbeats 4000000 in
theorem C1_keeps_arg2 (V : Valuation τ sig (Elt Ideal)) : after (opsC1 (F := Ideal)) V (Proc.devRef .tc main_arg2) = V (Proc.devRef .tc main_arg2) := by
  dsimp only [opsC1]
  after_results_simp
set_option maxHeartbeats 4000000 in
theorem C2_v70 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv62 : V (Proc.devRef .tc main_v62) = val_main_v62 (F := Ideal) x0 x1 x2 x3 x4) (hv25 : V (Proc.devRef .tc main_v25) = val_main_v25 (F := Ideal) x0 x3 x4) (hv63 : V (Proc.devRef .tc main_v63) = val_main_v63 (F := Ideal) x0 x3 x4) (hv64 : V (Proc.devRef .tc main_v64) = val_main_v64 (F := Ideal) x0 x1 x2 x3 x4) :
    after (opsC2 (F := Ideal)) V (Proc.devRef .tc main_v70) = val_main_v70 (F := Ideal) x0 x1 x2 x3 x4 := by
  dsimp only [opsC2]
  after_results_simp
  simp only [hv62, hv25, hv63, hv64]
  rfl
set_option maxHeartbeats 4000000 in
theorem C2_v71 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv25 : V (Proc.devRef .tc main_v25) = val_main_v25 (F := Ideal) x0 x3 x4) :
    after (opsC2 (F := Ideal)) V (Proc.devRef .tc main_v71) = val_main_v71 (F := Ideal) x0 x3 x4 := by
  dsimp only [opsC2]
  after_results_simp
  simp only [hv25]
  rfl
set_option maxHeartbeats 4000000 in
theorem C2_keeps_v62 (V : Valuation τ sig (Elt Ideal)) : after (opsC2 (F := Ideal)) V (Proc.devRef .tc main_v62) = V (Proc.devRef .tc main_v62) := by
  dsimp only [opsC2]
  after_results_simp
set_option maxHeartbeats 4000000 in
theorem C2_keeps_v29 (V : Valuation τ sig (Elt Ideal)) : after (opsC2 (F := Ideal)) V (Proc.devRef .tc main_v29) = V (Proc.devRef .tc main_v29) := by
  dsimp only [opsC2]
  after_results_simp
set_option maxHeartbeats 4000000 in
theorem C2_keeps_v30 (V : Valuation τ sig (Elt Ideal)) : after (opsC2 (F := Ideal)) V (Proc.devRef .tc main_v30) = V (Proc.devRef .tc main_v30) := by
  dsimp only [opsC2]
  after_results_simp
set_option maxHeartbeats 4000000 in
theorem C2_keeps_v31 (V : Valuation τ sig (Elt Ideal)) : after (opsC2 (F := Ideal)) V (Proc.devRef .tc main_v31) = V (Proc.devRef .tc main_v31) := by
  dsimp only [opsC2]
  after_results_simp
set_option maxHeartbeats 4000000 in
theorem C2_keeps_arg2 (V : Valuation τ sig (Elt Ideal)) : after (opsC2 (F := Ideal)) V (Proc.devRef .tc main_arg2) = V (Proc.devRef .tc main_arg2) := by
  dsimp only [opsC2]
  after_results_simp
set_option maxHeartbeats 4000000 in
theorem C3_v72_of (V : Valuation τ sig (Elt Ideal)) :
    after (opsC3 (F := Ideal)) V (Proc.devRef .tc main_v72) = Cert.Proof.Addr.R.rollB (V (Proc.devRef .tc main_v62)) := by
  dsimp only [opsC3]
  after_results_simp
  rfl
theorem C3_v72 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv62 : V (Proc.devRef .tc main_v62) = val_main_v62 (F := Ideal) x0 x1 x2 x3 x4) :
    after (opsC3 (F := Ideal)) V (Proc.devRef .tc main_v72) = val_main_v72 (F := Ideal) x0 x1 x2 x3 x4 := by
  rw [C3_v72_of, hv62]
  rfl
set_option maxHeartbeats 4000000 in
theorem C3_keeps_v70 (V : Valuation τ sig (Elt Ideal)) : after (opsC3 (F := Ideal)) V (Proc.devRef .tc main_v70) = V (Proc.devRef .tc main_v70) := by
  dsimp only [opsC3]
  after_results_simp
set_option maxHeartbeats 4000000 in
theorem C3_keeps_v71 (V : Valuation τ sig (Elt Ideal)) : after (opsC3 (F := Ideal)) V (Proc.devRef .tc main_v71) = V (Proc.devRef .tc main_v71) := by
  dsimp only [opsC3]
  after_results_simp
set_option maxHeartbeats 4000000 in
theorem C3_keeps_v29 (V : Valuation τ sig (Elt Ideal)) : after (opsC3 (F := Ideal)) V (Proc.devRef .tc main_v29) = V (Proc.devRef .tc main_v29) := by
  dsimp only [opsC3]
  after_results_simp
set_option maxHeartbeats 4000000 in
theorem C3_keeps_v30 (V : Valuation τ sig (Elt Ideal)) : after (opsC3 (F := Ideal)) V (Proc.devRef .tc main_v30) = V (Proc.devRef .tc main_v30) := by
  dsimp only [opsC3]
  after_results_simp
set_option maxHeartbeats 4000000 in
theorem C3_keeps_v31 (V : Valuation τ sig (Elt Ideal)) : after (opsC3 (F := Ideal)) V (Proc.devRef .tc main_v31) = V (Proc.devRef .tc main_v31) := by
  dsimp only [opsC3]
  after_results_simp
set_option maxHeartbeats 4000000 in
theorem C3_keeps_arg2 (V : Valuation τ sig (Elt Ideal)) : after (opsC3 (F := Ideal)) V (Proc.devRef .tc main_arg2) = V (Proc.devRef .tc main_arg2) := by
  dsimp only [opsC3]
  after_results_simp
set_option maxHeartbeats 16000000 in
theorem C4_v83 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv70 : V (Proc.devRef .tc main_v70) = val_main_v70 (F := Ideal) x0 x1 x2 x3 x4) (hv71 : V (Proc.devRef .tc main_v71) = val_main_v71 (F := Ideal) x0 x3 x4) (hv72 : V (Proc.devRef .tc main_v72) = val_main_v72 (F := Ideal) x0 x1 x2 x3 x4) (hv29 : V (Proc.devRef .tc main_v29) = val_main_v29 (F := Ideal) x0 x3 x4) :
    after (opsC4 (F := Ideal)) V (Proc.devRef .tc main_v83) = val_main_v83 (F := Ideal) x0 x1 x2 x3 x4 := by
  dsimp only [opsC4]
  after_results_simp
  simp only [hv70, hv71, hv72, hv29]
  rfl
set_option maxHeartbeats 4000000 in
theorem C4_keeps_v30 (V : Valuation τ sig (Elt Ideal)) : after (opsC4 (F := Ideal)) V (Proc.devRef .tc main_v30) = V (Proc.devRef .tc main_v30) := by
  dsimp only [opsC4]
  after_results_simp
set_option maxHeartbeats 4000000 in
theorem C4_keeps_v31 (V : Valuation τ sig (Elt Ideal)) : after (opsC4 (F := Ideal)) V (Proc.devRef .tc main_v31) = V (Proc.devRef .tc main_v31) := by
  dsimp only [opsC4]
  after_results_simp
set_option maxHeartbeats 4000000 in
theorem C4_keeps_arg2 (V : Valuation τ sig (Elt Ideal)) : after (opsC4 (F := Ideal)) V (Proc.devRef .tc main_arg2) = V (Proc.devRef .tc main_arg2) := by
  dsimp only [opsC4]
  after_results_simp

end Cert.Proof.RefC

end
-- ==== Proof.RefStaged.lean ====
/-
  The last part of the reference's line (the memory write) and the whole run: part by part, each buffer still read is
  the stage the reference's operations define, down to the two results.
-/
import proofs.«139971_j5454608466465_1_alg».proof.Proof.RefOps
import proofs.«139971_j5454608466465_1_alg».proof.Proof.RefRead
import proofs.«139971_j5454608466465_1_alg».proof.Proof.RefChunks
import proofs.«139971_j5454608466465_1_alg».proof.Proof.RefA
import proofs.«139971_j5454608466465_1_alg».proof.Proof.RefB
import proofs.«139971_j5454608466465_1_alg».proof.Proof.RefC
import Idealize.ShloMosaic.Lib.StableHlo.Run

set_option maxRecDepth 65536

noncomputable section

namespace Cert.Proof.RefStaged

open Cert.ReferenceIdeal Cert.ReferenceIdeal.Gen Cert.ReferenceIdeal.ValueP
open Idealize.ShloMosaic Idealize.ShloMosaic.TcCoe Idealize.SL.Sem Idealize.ShloMosaic.StableHlo
open Cert.ReferenceIdeal.ReadP
open Cert.Proof.RefChunks

set_option maxHeartbeats 16000000 in
theorem D_v91 (V : Valuation τ sig (Elt Ideal)) (x0 : (⟨S1x1024, .f32⟩ : BufTy).Contents (Elt Ideal)) (x1 : (⟨S1x16384, .f32⟩ : BufTy).Contents (Elt Ideal)) (x2 : (⟨S16384x512, .f32⟩ : BufTy).Contents (Elt Ideal)) (x3 : (⟨S1542x1024, .f32⟩ : BufTy).Contents (Elt Ideal)) (x4 : (⟨S1542, .f32⟩ : BufTy).Contents (Elt Ideal)) (hv83 : V (Proc.devRef .tc main_v83) = val_main_v83 (F := Ideal) x0 x1 x2 x3 x4) (hv30 : V (Proc.devRef .tc main_v30) = val_main_v30 (F := Ideal) x0 x3 x4) (hv31 : V (Proc.devRef .tc main_v31) = val_main_v31 (F := Ideal) x0 x3 x4) (harg2 : V (Proc.devRef .tc main_arg2) = x2) :
    after (opsD (F := Ideal)) V (Proc.devRef .tc main_v91) = val_main_v91 (F := Ideal) x0 x1 x2 x3 x4 := by
  dsimp only [opsD]
  after_results_simp
  simp only [hv83, hv30, hv31, harg2]
  rfl
set_option maxHeartbeats 4000000 in
theorem D_keeps_v83 (V : Valuation τ sig (Elt Ideal)) : after (opsD (F := Ideal)) V (Proc.devRef .tc main_v83) = V (Proc.devRef .tc main_v83) := by
  dsimp only [opsD]
  after_results_simp

/-! ## Part by part -/

variable (m : (ℓ : Loc nD τ sig) → Buf (Elt Ideal) ℓ) (c : Dev nD)

theorem b62 : (after (opsB (F := Ideal)) (after (opsA (F := Ideal)) (launchContents m c))) (Proc.devRef .tc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.Proof.RefB.B_v62 _ _ _ _ _ _ (Cert.Proof.RefA.A_v4 m c) (Cert.Proof.RefA.A_v6 m c) (Cert.Proof.RefA.A_v13 m c) (Cert.Proof.RefA.A_arg1 m c) (Cert.Proof.RefA.A_arg2 m c)
theorem b25 : (after (opsB (F := Ideal)) (after (opsA (F := Ideal)) (launchContents m c))) (Proc.devRef .tc main_v25) = val_main_v25 (F := Ideal) (m ((c.tc : Thread nD τ).loc main_arg0)) (m ((c.tc : Thread nD τ).loc main_arg3)) (m ((c.tc : Thread nD τ).loc main_arg4)) :=
  (Cert.Proof.RefB.B_keeps_v25 _).trans (Cert.Proof.RefA.A_v25 m c)
theorem b29 : (after (opsB (F := Ideal)) (after (opsA (F := Ideal)) (launchContents m c))) (Proc.devRef .tc main_v29) = val_main_v29 (F := Ideal) (m ((c.tc : Thread nD τ).loc main_arg0)) (m ((c.tc : Thread nD τ).loc main_arg3)) (m ((c.tc : Thread nD τ).loc main_arg4)) :=
  (Cert.Proof.RefB.B_keeps_v29 _).trans (Cert.Proof.RefA.A_v29 m c)
theorem b30 : (after (opsB (F := Ideal)) (after (opsA (F := Ideal)) (launchContents m c))) (Proc.devRef .tc main_v30) = val_main_v30 (F := Ideal) (m ((c.tc : Thread nD τ).loc main_arg0)) (m ((c.tc : Thread nD τ).loc main_arg3)) (m ((c.tc : Thread nD τ).loc main_arg4)) :=
  (Cert.Proof.RefB.B_keeps_v30 _).trans (Cert.Proof.RefA.A_v30 m c)
theorem b31 : (after (opsB (F := Ideal)) (after (opsA (F := Ideal)) (launchContents m c))) (Proc.devRef .tc main_v31) = val_main_v31 (F := Ideal) (m ((c.tc : Thread nD τ).loc main_arg0)) (m ((c.tc : Thread nD τ).loc main_arg3)) (m ((c.tc : Thread nD τ).loc main_arg4)) :=
  (Cert.Proof.RefB.B_keeps_v31 _).trans (Cert.Proof.RefA.A_v31 m c)
theorem ba2 : (after (opsB (F := Ideal)) (after (opsA (F := Ideal)) (launchContents m c))) (Proc.devRef .tc main_arg2) = (m ((c.tc : Thread nD τ).loc main_arg2)) :=
  (Cert.Proof.RefB.B_keeps_arg2 _).trans (Cert.Proof.RefA.A_arg2 m c)
theorem c1_64 : (after (opsC1 (F := Ideal)) (after (opsB (F := Ideal)) (after (opsA (F := Ideal)) (launchContents m c)))) (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.Proof.RefC.C1_v64 _ _ _ _ _ _ (b62 m c)
theorem c1_63 : (after (opsC1 (F := Ideal)) (after (opsB (F := Ideal)) (after (opsA (F := Ideal)) (launchContents m c)))) (Proc.devRef .tc main_v63) = val_main_v63 (F := Ideal) (m ((c.tc : Thread nD τ).loc main_arg0)) (m ((c.tc : Thread nD τ).loc main_arg3)) (m ((c.tc : Thread nD τ).loc main_arg4)) :=
  Cert.Proof.RefC.C1_v63 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (b25 m c)
theorem c1_62 : (after (opsC1 (F := Ideal)) (after (opsB (F := Ideal)) (after (opsA (F := Ideal)) (launchContents m c)))) (Proc.devRef .tc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (Cert.Proof.RefC.C1_keeps_v62 _).trans (b62 m c)
theorem c1_25 : (after (opsC1 (F := Ideal)) (after (opsB (F := Ideal)) (after (opsA (F := Ideal)) (launchContents m c)))) (Proc.devRef .tc main_v25) = val_main_v25 (F := Ideal) (m ((c.tc : Thread nD τ).loc main_arg0)) (m ((c.tc : Thread nD τ).loc main_arg3)) (m ((c.tc : Thread nD τ).loc main_arg4)) :=
  (Cert.Proof.RefC.C1_keeps_v25 _).trans (b25 m c)
theorem c1_29 : (after (opsC1 (F := Ideal)) (after (opsB (F := Ideal)) (after (opsA (F := Ideal)) (launchContents m c)))) (Proc.devRef .tc main_v29) = val_main_v29 (F := Ideal) (m ((c.tc : Thread nD τ).loc main_arg0)) (m ((c.tc : Thread nD τ).loc main_arg3)) (m ((c.tc : Thread nD τ).loc main_arg4)) :=
  (Cert.Proof.RefC.C1_keeps_v29 _).trans (b29 m c)
theorem c1_30 : (after (opsC1 (F := Ideal)) (after (opsB (F := Ideal)) (after (opsA (F := Ideal)) (launchContents m c)))) (Proc.devRef .tc main_v30) = val_main_v30 (F := Ideal) (m ((c.tc : Thread nD τ).loc main_arg0)) (m ((c.tc : Thread nD τ).loc main_arg3)) (m ((c.tc : Thread nD τ).loc main_arg4)) :=
  (Cert.Proof.RefC.C1_keeps_v30 _).trans (b30 m c)
theorem c1_31 : (after (opsC1 (F := Ideal)) (after (opsB (F := Ideal)) (after (opsA (F := Ideal)) (launchContents m c)))) (Proc.devRef .tc main_v31) = val_main_v31 (F := Ideal) (m ((c.tc : Thread nD τ).loc main_arg0)) (m ((c.tc : Thread nD τ).loc main_arg3)) (m ((c.tc : Thread nD τ).loc main_arg4)) :=
  (Cert.Proof.RefC.C1_keeps_v31 _).trans (b31 m c)
theorem c1_a2 : (after (opsC1 (F := Ideal)) (after (opsB (F := Ideal)) (after (opsA (F := Ideal)) (launchContents m c)))) (Proc.devRef .tc main_arg2) = (m ((c.tc : Thread nD τ).loc main_arg2)) :=
  (Cert.Proof.RefC.C1_keeps_arg2 _).trans (ba2 m c)
theorem c2_70 : (after (opsC2 (F := Ideal)) (after (opsC1 (F := Ideal)) (after (opsB (F := Ideal)) (after (opsA (F := Ideal)) (launchContents m c))))) (Proc.devRef .tc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.Proof.RefC.C2_v70 _ _ _ _ _ _ (c1_62 m c) (c1_25 m c) (c1_63 m c) (c1_64 m c)
theorem c2_71 : (after (opsC2 (F := Ideal)) (after (opsC1 (F := Ideal)) (after (opsB (F := Ideal)) (after (opsA (F := Ideal)) (launchContents m c))))) (Proc.devRef .tc main_v71) = val_main_v71 (F := Ideal) (m ((c.tc : Thread nD τ).loc main_arg0)) (m ((c.tc : Thread nD τ).loc main_arg3)) (m ((c.tc : Thread nD τ).loc main_arg4)) :=
  Cert.Proof.RefC.C2_v71 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (c1_25 m c)
theorem c2_62 : (after (opsC2 (F := Ideal)) (after (opsC1 (F := Ideal)) (after (opsB (F := Ideal)) (after (opsA (F := Ideal)) (launchContents m c))))) (Proc.devRef .tc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (Cert.Proof.RefC.C2_keeps_v62 _).trans (c1_62 m c)
theorem c2_29 : (after (opsC2 (F := Ideal)) (after (opsC1 (F := Ideal)) (after (opsB (F := Ideal)) (after (opsA (F := Ideal)) (launchContents m c))))) (Proc.devRef .tc main_v29) = val_main_v29 (F := Ideal) (m ((c.tc : Thread nD τ).loc main_arg0)) (m ((c.tc : Thread nD τ).loc main_arg3)) (m ((c.tc : Thread nD τ).loc main_arg4)) :=
  (Cert.Proof.RefC.C2_keeps_v29 _).trans (c1_29 m c)
theorem c2_30 : (after (opsC2 (F := Ideal)) (after (opsC1 (F := Ideal)) (after (opsB (F := Ideal)) (after (opsA (F := Ideal)) (launchContents m c))))) (Proc.devRef .tc main_v30) = val_main_v30 (F := Ideal) (m ((c.tc : Thread nD τ).loc main_arg0)) (m ((c.tc : Thread nD τ).loc main_arg3)) (m ((c.tc : Thread nD τ).loc main_arg4)) :=
  (Cert.Proof.RefC.C2_keeps_v30 _).trans (c1_30 m c)
theorem c2_31 : (after (opsC2 (F := Ideal)) (after (opsC1 (F := Ideal)) (after (opsB (F := Ideal)) (after (opsA (F := Ideal)) (launchContents m c))))) (Proc.devRef .tc main_v31) = val_main_v31 (F := Ideal) (m ((c.tc : Thread nD τ).loc main_arg0)) (m ((c.tc : Thread nD τ).loc main_arg3)) (m ((c.tc : Thread nD τ).loc main_arg4)) :=
  (Cert.Proof.RefC.C2_keeps_v31 _).trans (c1_31 m c)
theorem c2_a2 : (after (opsC2 (F := Ideal)) (after (opsC1 (F := Ideal)) (after (opsB (F := Ideal)) (after (opsA (F := Ideal)) (launchContents m c))))) (Proc.devRef .tc main_arg2) = (m ((c.tc : Thread nD τ).loc main_arg2)) :=
  (Cert.Proof.RefC.C2_keeps_arg2 _).trans (c1_a2 m c)
theorem c3_72 : (after (opsC3 (F := Ideal)) (after (opsC2 (F := Ideal)) (after (opsC1 (F := Ideal)) (after (opsB (F := Ideal)) (after (opsA (F := Ideal)) (launchContents m c)))))) (Proc.devRef .tc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.Proof.RefC.C3_v72 _ _ _ _ _ _ (c2_62 m c)
theorem c3_70 : (after (opsC3 (F := Ideal)) (after (opsC2 (F := Ideal)) (after (opsC1 (F := Ideal)) (after (opsB (F := Ideal)) (after (opsA (F := Ideal)) (launchContents m c)))))) (Proc.devRef .tc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (Cert.Proof.RefC.C3_keeps_v70 _).trans (c2_70 m c)
theorem c3_71 : (after (opsC3 (F := Ideal)) (after (opsC2 (F := Ideal)) (after (opsC1 (F := Ideal)) (after (opsB (F := Ideal)) (after (opsA (F := Ideal)) (launchContents m c)))))) (Proc.devRef .tc main_v71) = val_main_v71 (F := Ideal) (m ((c.tc : Thread nD τ).loc main_arg0)) (m ((c.tc : Thread nD τ).loc main_arg3)) (m ((c.tc : Thread nD τ).loc main_arg4)) :=
  (Cert.Proof.RefC.C3_keeps_v71 _).trans (c2_71 m c)
theorem c3_29 : (after (opsC3 (F := Ideal)) (after (opsC2 (F := Ideal)) (after (opsC1 (F := Ideal)) (after (opsB (F := Ideal)) (after (opsA (F := Ideal)) (launchContents m c)))))) (Proc.devRef .tc main_v29) = val_main_v29 (F := Ideal) (m ((c.tc : Thread nD τ).loc main_arg0)) (m ((c.tc : Thread nD τ).loc main_arg3)) (m ((c.tc : Thread nD τ).loc main_arg4)) :=
  (Cert.Proof.RefC.C3_keeps_v29 _).trans (c2_29 m c)
theorem c3_30 : (after (opsC3 (F := Ideal)) (after (opsC2 (F := Ideal)) (after (opsC1 (F := Ideal)) (after (opsB (F := Ideal)) (after (opsA (F := Ideal)) (launchContents m c)))))) (Proc.devRef .tc main_v30) = val_main_v30 (F := Ideal) (m ((c.tc : Thread nD τ).loc main_arg0)) (m ((c.tc : Thread nD τ).loc main_arg3)) (m ((c.tc : Thread nD τ).loc main_arg4)) :=
  (Cert.Proof.RefC.C3_keeps_v30 _).trans (c2_30 m c)
theorem c3_31 : (after (opsC3 (F := Ideal)) (after (opsC2 (F := Ideal)) (after (opsC1 (F := Ideal)) (after (opsB (F := Ideal)) (after (opsA (F := Ideal)) (launchContents m c)))))) (Proc.devRef .tc main_v31) = val_main_v31 (F := Ideal) (m ((c.tc : Thread nD τ).loc main_arg0)) (m ((c.tc : Thread nD τ).loc main_arg3)) (m ((c.tc : Thread nD τ).loc main_arg4)) :=
  (Cert.Proof.RefC.C3_keeps_v31 _).trans (c2_31 m c)
theorem c3_a2 : (after (opsC3 (F := Ideal)) (after (opsC2 (F := Ideal)) (after (opsC1 (F := Ideal)) (after (opsB (F := Ideal)) (after (opsA (F := Ideal)) (launchContents m c)))))) (Proc.devRef .tc main_arg2) = (m ((c.tc : Thread nD τ).loc main_arg2)) :=
  (Cert.Proof.RefC.C3_keeps_arg2 _).trans (c2_a2 m c)
theorem c4_83 : (after (opsC4 (F := Ideal)) (after (opsC3 (F := Ideal)) (after (opsC2 (F := Ideal)) (after (opsC1 (F := Ideal)) (after (opsB (F := Ideal)) (after (opsA (F := Ideal)) (launchContents m c))))))) (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.Proof.RefC.C4_v83 _ _ _ _ _ _ (c3_70 m c) (c3_71 m c) (c3_72 m c) (c3_29 m c)
theorem c4_30 : (after (opsC4 (F := Ideal)) (after (opsC3 (F := Ideal)) (after (opsC2 (F := Ideal)) (after (opsC1 (F := Ideal)) (after (opsB (F := Ideal)) (after (opsA (F := Ideal)) (launchContents m c))))))) (Proc.devRef .tc main_v30) = val_main_v30 (F := Ideal) (m ((c.tc : Thread nD τ).loc main_arg0)) (m ((c.tc : Thread nD τ).loc main_arg3)) (m ((c.tc : Thread nD τ).loc main_arg4)) :=
  (Cert.Proof.RefC.C4_keeps_v30 _).trans (c3_30 m c)
theorem c4_31 : (after (opsC4 (F := Ideal)) (after (opsC3 (F := Ideal)) (after (opsC2 (F := Ideal)) (after (opsC1 (F := Ideal)) (after (opsB (F := Ideal)) (after (opsA (F := Ideal)) (launchContents m c))))))) (Proc.devRef .tc main_v31) = val_main_v31 (F := Ideal) (m ((c.tc : Thread nD τ).loc main_arg0)) (m ((c.tc : Thread nD τ).loc main_arg3)) (m ((c.tc : Thread nD τ).loc main_arg4)) :=
  (Cert.Proof.RefC.C4_keeps_v31 _).trans (c3_31 m c)
theorem c4_a2 : (after (opsC4 (F := Ideal)) (after (opsC3 (F := Ideal)) (after (opsC2 (F := Ideal)) (after (opsC1 (F := Ideal)) (after (opsB (F := Ideal)) (after (opsA (F := Ideal)) (launchContents m c))))))) (Proc.devRef .tc main_arg2) = (m ((c.tc : Thread nD τ).loc main_arg2)) :=
  (Cert.Proof.RefC.C4_keeps_arg2 _).trans (c3_a2 m c)

/-- The first result buffer after the whole line: the sharpened weights' stage. -/
theorem res_v83 : after (ops (F := Ideal)) (launchContents m c) (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ops_split, StableHlo.after_append, StableHlo.after_append, StableHlo.after_append, StableHlo.after_append, StableHlo.after_append, StableHlo.after_append, D_keeps_v83]
  exact c4_83 m c

/-- The second result buffer after the whole line: the written memory's stage. -/
theorem res_v91 : after (ops (F := Ideal)) (launchContents m c) (Proc.devRef .tc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ops_split, StableHlo.after_append, StableHlo.after_append, StableHlo.after_append, StableHlo.after_append, StableHlo.after_append, StableHlo.after_append]
  exact D_v91 _ _ _ _ _ _ (c4_83 m c) (c4_30 m c) (c4_31 m c) (c4_a2 m c)
set_option maxHeartbeats 56800000 in
/-- Every weakly fair execution of the reference terminates, each result buffer at its stage of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v83).trans (res_v83 m c), (h c main_v91).trans (res_v91 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.Proof.RefStaged

end
-- ==== Proof.lean ====
/-
  The write head of a memory-augmented network: a linear projection of the controller's embedding is cut into a key, a key
  strength, an interpolation gate, three shift weights, a sharpening exponent and an erase and an add row; the key is
  compared with every row of the memory (cosine similarity), a softmax over the rows scaled by the key strength gives the
  content weights, which are interpolated with the previous weights, shifted circularly by one place either way and
  sharpened; with the resulting weights every memory row is partly erased and added to.

  The kernel runs the projection, the per-row statistics (dot product with the key, norm) and the erase / add write as
  three pipelined regions over blocks of the memory and keeps the weight vector as a column; the reference is one straight
  line of array operations and keeps it as a row. At exact extended-real arithmetic the two compute the same numbers:
  the matrix products are the same sums (in the statistics the two factors of each product are swapped), every other step
  is the same operation on the same entries, and the reference's outer products are sums over a single index. No step
  needs finiteness of the inputs.

  The modules: `KRun` names the kernel's result buffers at the end of its run; `Region0`, `Region1`, `Region2` read each
  region's result array as one function of the arrays it enters with; `ColRow` is the column-against-row relation and
  `Addressing` carries it through the addressing; `RefLeaves` meets the regions' functions with the reference's stages;
  `KFold` folds the kernel's host stretches and regions together; `RefStaged` is the reference's run; `Assemble` puts the
  two runs side by side.
-/
import proofs.«139971_j5454608466465_1_alg».proof.Defs
import proofs.«139971_j5454608466465_1_alg».proof.Proof.Gen.Kernel
import proofs.«139971_j5454608466465_1_alg».proof.Proof.Gen.Kernel.Skeleton
import proofs.«139971_j5454608466465_1_alg».proof.Proof.Gen.Kernel.Launch
import proofs.«139971_j5454608466465_1_alg».proof.Proof.Gen.Kernel.Points
import proofs.«139971_j5454608466465_1_alg».proof.Proof.Gen.Kernel.Frame
import proofs.«139971_j5454608466465_1_alg».proof.Proof.Gen.KernelIdeal
import proofs.«139971_j5454608466465_1_alg».proof.Proof.Gen.KernelIdeal.Skeleton
import proofs.«139971_j5454608466465_1_alg».proof.Proof.Gen.KernelIdeal.Launch
import proofs.«139971_j5454608466465_1_alg».proof.Proof.Gen.KernelIdeal.Points
import proofs.«139971_j5454608466465_1_alg».proof.Proof.Gen.KernelIdeal.Frame
import proofs.«139971_j5454608466465_1_alg».proof.Proof.Gen.ReferenceIdeal
import proofs.«139971_j5454608466465_1_alg».proof.Proof.Gen.Pre_finite_inputs
import proofs.«139971_j5454608466465_1_alg».proof.Proof.Assemble
import proofs.«139971_j5454608466465_1_alg».proof.Proof.RefStaged
import Idealize.ShloMosaic.Adequacy
import Idealize.ShloMosaic.Init

noncomputable section

namespace Cert.Proof

open Idealize.ShloMosaic Idealize.SL.Sem

/-- The reference runs to its stages of the arguments. -/
theorem refRuns : Cert.Proof.Assemble.RefRuns := fun m' ρ' => Cert.Proof.RefStaged.run m' ρ'

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Assemble.frame_of refRuns,
  trivial,
  Cert.Proof.Assemble.algebraic_of refRuns⟩

end Cert.Proof

end
